-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072 : Shape := ⟨1, ![131072]⟩
abbrev S100000x128 : Shape := ⟨2, ![100000, 128]⟩
abbrev S500000x128 : Shape := ⟨2, ![500000, 128]⟩
abbrev S128 : Shape := ⟨1, ![128]⟩
abbrev S1536x384 : Shape := ⟨2, ![1536, 384]⟩
abbrev S1536 : Shape := ⟨1, ![1536]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S500000x128 : S_.BroadcastsInDim S500000x128 (![] : Fin 0 → Fin S500000x128.rank)
  reducesTo_S500000x128_S_d0_1 : S500000x128.ReducesTo [0, 1] S_
  bcast_S_S128 : S_.BroadcastsInDim S128 (![] : Fin 0 → Fin S128.rank)
  reducesTo_S128_S_d0 : S128.ReducesTo [0] S_
  bcast_S_S1536x384 : S_.BroadcastsInDim S1536x384 (![] : Fin 0 → Fin S1536x384.rank)
  reducesTo_S1536x384_S_d0_1 : S1536x384.ReducesTo [0, 1] S_
  bcast_S_S1536 : S_.BroadcastsInDim S1536 (![] : Fin 0 → Fin S1536.rank)
  reducesTo_S1536_S_d0 : S1536.ReducesTo [0] S_

variable [Facts]

def fn_part2 {F : FTy → Type} [FloatOps F] (main_arg10 : FVec F S1536 .f32) (main_arg11 : FVec F S1536 .f32) (main_v33 : IVec S_ 1) : IVec S_ 1 :=
  let main_v34 : FVec F S1536 .f32 := Host.absf main_arg10
  let main_cst_12 : FVec F S_ .f32 := constant S_ .f32 0x7F800000#32
  let main_v35 : FVec F S1536 .f32 := broadcastInDim S1536 ![] bcast_S_S1536 main_cst_12
  let main_v36 : IVec S1536 1 := cmpf .olt main_v34 main_v35
  let main_c_13 : IVec S_ 1 := constantI S_ 1 1#1
  let main_v37 : IVec S_ 1 := (fun x v => Host.reduce IntOp.andi x v reducesTo_S1536_S_d0 h_S_) main_v36 main_c_13
  let main_v38 : IVec S_ 1 := andi main_v33 main_v37
  let main_v39 : FVec F S1536 .f32 := Host.absf main_arg11
  let main_cst_14 : FVec F S_ .f32 := constant S_ .f32 0x7F800000#32
  let main_v40 : FVec F S1536 .f32 := broadcastInDim S1536 ![] bcast_S_S1536 main_cst_14
  let main_v41 : IVec S1536 1 := cmpf .olt main_v39 main_v40
  let main_c_15 : IVec S_ 1 := constantI S_ 1 1#1
  let main_v42 : IVec S_ 1 := (fun x v => Host.reduce IntOp.andi x v reducesTo_S1536_S_d0 h_S_) main_v41 main_c_15
  let main_v43 : IVec S_ 1 := andi main_v38 main_v42
  main_v43

def fn_part1 {F : FTy → Type} [FloatOps F] (main_arg7 : FVec F S128 .f32) (main_arg8 : FVec F S1536x384 .f32) (main_arg9 : FVec F S1536x384 .f32) (main_arg10 : FVec F S1536 .f32) (main_arg11 : FVec F S1536 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1536x384 .f32 := Host.absf main_arg8
  let main_cst_8 : FVec F S_ .f32 := constant S_ .f32 0x7F800000#32
  let main_v25 : FVec F S1536x384 .f32 := broadcastInDim S1536x384 ![] bcast_S_S1536x384 main_cst_8
  let main_v26 : IVec S1536x384 1 := cmpf .olt main_v24 main_v25
  let main_c_9 : IVec S_ 1 := constantI S_ 1 1#1
  let main_v27 : IVec S_ 1 := (fun x v => Host.reduce IntOp.andi x v reducesTo_S1536x384_S_d0_1 h_S_) main_v26 main_c_9
  let main_v28 : IVec S_ 1 := andi main_v23 main_v27
  let main_v29 : FVec F S1536x384 .f32 := Host.absf main_arg9
  let main_cst_10 : FVec F S_ .f32 := constant S_ .f32 0x7F800000#32
  let main_v30 : FVec F S1536x384 .f32 := broadcastInDim S1536x384 ![] bcast_S_S1536x384 main_cst_10
  let main_v31 : IVec S1536x384 1 := cmpf .olt main_v29 main_v30
  let main_c_11 : IVec S_ 1 := constantI S_ 1 1#1
  let main_v32 : IVec S_ 1 := (fun x v => Host.reduce IntOp.andi x v reducesTo_S1536x384_S_d0_1 h_S_) main_v31 main_c_11
  let main_v33 : IVec S_ 1 := andi main_v28 main_v32
  fn_part2 (F := F) main_arg10 main_arg11 main_v33

def fn {F : FTy → Type} [FloatOps F] (main_arg0 : IVec S131072 32) (main_arg1 : IVec S131072 32) (main_arg2 : FVec F S131072 .f32) (main_arg3 : IVec S131072 32) (main_arg4 : FVec F S100000x128 .f32) (main_arg5 : FVec F S500000x128 .f32) (main_arg6 : FVec F S128 .f32) (main_arg7 : FVec F S128 .f32) (main_arg8 : FVec F S1536x384 .f32) (main_arg9 : FVec F S1536x384 .f32) (main_arg10 : FVec F S1536 .f32) (main_arg11 : FVec F S1536 .f32) : IVec S_ 1 :=
  let main_v0 : FVec F S131072 .f32 := Host.absf main_arg2
  let main_cst : FVec F S_ .f32 := constant S_ .f32 0x7F800000#32
  let main_v1 : FVec F S131072 .f32 := broadcastInDim S131072 ![] bcast_S_S131072 main_cst
  let main_v2 : IVec S131072 1 := cmpf .olt main_v0 main_v1
  let main_c : IVec S_ 1 := constantI S_ 1 1#1
  let main_v3 : IVec S_ 1 := (fun x v => Host.reduce IntOp.andi x v reducesTo_S131072_S_d0 h_S_) main_v2 main_c
  let main_v4 : FVec F S100000x128 .f32 := Host.absf main_arg4
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S500000x128 .f32 := Host.absf main_arg5
  let main_cst_2 : FVec F S_ .f32 := constant S_ .f32 0x7F800000#32
  let main_v10 : FVec F S500000x128 .f32 := broadcastInDim S500000x128 ![] bcast_S_S500000x128 main_cst_2
  let main_v11 : IVec S500000x128 1 := cmpf .olt main_v9 main_v10
  let main_c_3 : IVec S_ 1 := constantI S_ 1 1#1
  let main_v12 : IVec S_ 1 := (fun x v => Host.reduce IntOp.andi x v reducesTo_S500000x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_v13 main_v16
-- ==== Kernel.lean ====
abbrev S131072 : Shape := ⟨1, ![131072]⟩
abbrev S100000x128 : Shape := ⟨2, ![100000, 128]⟩
abbrev S500000x128 : Shape := ⟨2, ![500000, 128]⟩
abbrev S128 : Shape := ⟨1, ![128]⟩
abbrev S1536x384 : Shape := ⟨2, ![1536, 384]⟩
abbrev S1536 : Shape := ⟨1, ![1536]⟩
abbrev S_ : Shape := ⟨0, ![]⟩
abbrev S131072x1 : Shape := ⟨2, ![131072, 1]⟩
abbrev S131072x128 : Shape := ⟨2, ![131072, 128]⟩
abbrev S1x128 : Shape := ⟨2, ![1, 128]⟩
abbrev S384x384 : Shape := ⟨2, ![384, 384]⟩
abbrev S1152x384 : Shape := ⟨2, ![1152, 384]⟩
abbrev S384x1152 : Shape := ⟨2, ![384, 1152]⟩
abbrev S384 : Shape := ⟨1, ![384]⟩
abbrev S1152 : Shape := ⟨1, ![1152]⟩
abbrev S1x1152 : Shape := ⟨2, ![1, 1152]⟩
abbrev S131072x384 : Shape := ⟨2, ![131072, 384]⟩
abbrev S1024x128 : Shape := ⟨2, ![1024, 128]⟩
abbrev S1024x1 : Shape := ⟨2, ![1024, 1]⟩
abbrev S1024x384 : Shape := ⟨2, ![1024, 384]⟩
abbrev S128x1152 : Shape := ⟨2, ![128, 1152]⟩
abbrev S1024x1152 : Shape := ⟨2, ![1024, 1152]⟩

abbrev nBuf : Space → Nat
  | .hbm => 59
  | .vmem => 16
  | .smem => 0
  | _ => 0

abbrev bufTy : (tb : Table) → Fin (tcTables nBuf tb) → BufTy
  | .hbm, ⟨0, _⟩ => ⟨S131072, .i32⟩
  | .hbm, ⟨1, _⟩ => ⟨S131072, .i32⟩
  | .hbm, ⟨2, _⟩ => ⟨S131072, .f32⟩
  | .hbm, ⟨3, _⟩ => ⟨S131072, .i32⟩
  | .hbm, ⟨4, _⟩ => ⟨S100000x128, .f32⟩
  | .hbm, ⟨5, _⟩ => ⟨S500000x128, .f32⟩
  | .hbm, ⟨6, _⟩ => ⟨S128, .f32⟩
  | .hbm, ⟨7, _⟩ => ⟨S128, .f32⟩
  | .hbm, ⟨8, _⟩ => ⟨S1536x384, .f32⟩
  | .hbm, ⟨9, _⟩ => ⟨S1536x384, .f32⟩
  | .hbm, ⟨10, _⟩ => ⟨S1536, .f32⟩
  | .hbm, ⟨11, _⟩ => ⟨S1536, .f32⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S131072x1, .i32⟩
  | .hbm, ⟨20, _⟩ => ⟨S131072x128, .f32⟩
  | .hbm, ⟨21, _⟩ => ⟨S131072x128, .bf16⟩
  | .hbm, ⟨22, _⟩ => ⟨S_, .i32⟩
  | .hbm, ⟨23, _⟩ => ⟨S131072, .i32⟩
  | .hbm, ⟨24, _⟩ => ⟨S131072, .i1⟩
  | .hbm, ⟨25, _⟩ => ⟨S_, .i32⟩
  | .hbm, ⟨26, _⟩ => ⟨S131072, .i32⟩
  | .hbm, ⟨27, _⟩ => ⟨S131072, .i32⟩
  | .hbm, ⟨28, _⟩ => ⟨S131072, .i32⟩
  | .hbm, ⟨29, _⟩ => ⟨S131072x1, .i32⟩
  | .hbm, ⟨30, _⟩ => ⟨S131072x128, .f32⟩
  | .hbm, ⟨31, _⟩ => ⟨S131072x128, .bf16⟩
  | .hbm, ⟨32, _⟩ => ⟨S_, .i32⟩
  | .hbm, ⟨33, _⟩ => ⟨S131072, .i32⟩
  | .hbm, ⟨34, _⟩ => ⟨S131072, .i1⟩
  | .hbm, ⟨35, _⟩ => ⟨S_, .i32⟩
  | .hbm, ⟨36, _⟩ => ⟨S131072, .i32⟩
  | .hbm, ⟨37, _⟩ => ⟨S131072, .i32⟩
  | .hbm, ⟨38, _⟩ => ⟨S131072, .i32⟩
  | .hbm, ⟨39, _⟩ => ⟨S131072x1, .i32⟩
  | .hbm, ⟨40, _⟩ => ⟨S131072x128, .f32⟩
  | .hbm, ⟨41, _⟩ => ⟨S131072x128, .bf16⟩
  | .hbm, ⟨42, _⟩ => ⟨S131072x1, .f32⟩
  | .hbm, ⟨43, _⟩ => ⟨S1x128, .f32⟩
  | .hbm, ⟨44, _⟩ => ⟨S1x128, .f32⟩
  | .hbm, ⟨45, _⟩ => ⟨S384x384, .f32⟩
  | .hbm, ⟨46, _⟩ => ⟨S384x384, .f32⟩
  | .hbm, ⟨47, _⟩ => ⟨S384x384, .f32⟩
  | .hbm, ⟨48, _⟩ => ⟨S1152x384, .f32⟩
  | .hbm, ⟨49, _⟩ => ⟨S384x1152, .f32⟩
  | .hbm, ⟨50, _⟩ => ⟨S384x1152, .bf16⟩
  | .hbm, ⟨51, _⟩ => ⟨S1536, .f32⟩
  | .hbm, ⟨52, _⟩ => ⟨S384, .f32⟩
  | .hbm, ⟨53, _⟩ => ⟨S384, .f32⟩
  | .hbm, ⟨54, _⟩ => ⟨S384, .f32⟩
  | .hbm, ⟨55, _⟩ => ⟨S1152, .f32⟩
  | .hbm, ⟨56, _⟩ => ⟨S1x1152, .f32⟩
  | .hbm, ⟨57, _⟩ => ⟨S131072x384, .f32⟩
  | .hbm, ⟨58, _⟩ => ⟨S131072x384, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x1, .f32⟩
  | .local _ .vmem, ⟨7, _⟩ => ⟨S1024x1, .f32⟩
  | .local _ .vmem, ⟨8, _⟩ => ⟨S1x128, .f32⟩
  | .local _ .vmem, ⟨9, _⟩ => ⟨S1x128, .f32⟩
  | .local _ .vmem, ⟨10, _⟩ => ⟨S384x1152, .bf16⟩
  | .local _ .vmem, ⟨11, _⟩ => ⟨S1x1152, .f32⟩
  | .local _ .vmem, ⟨12, _⟩ => ⟨S1024x384, .f32⟩
  | .local _ .vmem, ⟨13, _⟩ => ⟨S1024x384, .f32⟩
  | .local _ .vmem, ⟨14, _⟩ => ⟨S1024x384, .f32⟩
  | .local _ .vmem, ⟨15, _⟩ => ⟨S1024x384, .f32⟩
  | _, _ => ⟨S131072, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39_0 : Ref sig .tc := ⟨.hbm, 57, rfl⟩
abbrev main_v39_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1152 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1152 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bitsLt_bf16_f32 : FTy.bits .bf16 < FTy.bits .f32
  shapeCasts_S131072_S131072x1 : S131072.ShapeCasts S131072x1
  shapeCasts_S128_S1x128 : S128.ShapeCasts S1x128
  slices_S1536x384_S384x384_0_0 : S1536x384.Slices ![0, 0] S384x384
  slices_S1536x384_S384x384_768_0 : S1536x384.Slices ![768, 0] S384x384
  slices_S1536x384_S384x384_1152_0 : S1536x384.Slices ![1152, 0] S384x384
  concatenates_S384x384_S384x384_S384x384_S1152x384_d0 : Shape.Concatenates [S384x384, S384x384, S384x384] S1152x384 0
  transposes_S1152x384_S384x1152_1_0 : S1152x384.Transposes [1, 0] S384x1152
  slices_S1536_S384_0 : S1536.Slices ![0] S384
  slices_S1536_S384_768 : S1536.Slices ![768] S384
  slices_S1536_S384_1152 : S1536.Slices ![1152] S384
  concatenates_S384_S384_S384_S1152_d0 : Shape.Concatenates [S384, S384, S384] S1152 0
  shapeCasts_S1152_S1x1152 : S1152.ShapeCasts S1x1152
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1024x1_S1024x128 : S1024x1.Broadcasts S1024x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S384x1152_S128x1152_0_0 : ∀ a, (![0, 0] : Fin 2 → Nat) a + S128x1152.size a ≤ S384x1152.size a
  h_S128x1152 : 0 < S128x1152.numel
  shapeCasts_S128x1152_S128x1152 : S128x1152.ShapeCasts S128x1152
  inb_S384x1152_S128x1152_128_0 : ∀ a, (![128, 0] : Fin 2 → Nat) a + S128x1152.size a ≤ S384x1152.size a
  inb_S384x1152_S128x1152_256_0 : ∀ a, (![256, 0] : Fin 2 → Nat) a + S128x1152.size a ≤ S384x1152.size a
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  broadcasts_S1x1152_S1024x1152 : S1x1152.Broadcasts S1024x1152
  slices_S1024x1152_o0_0_S1024x384 : S1024x1152.Slices ![0, 0] S1024x384
  slices_S1024x1152_o0_384_S1024x384 : S1024x1152.Slices ![0, 384] S1024x384
  slices_S1024x1152_o0_768_S1024x384 : S1024x1152.Slices ![0, 768] S1024x384
  inb_S1024x384_S1024x384_0_0 : ∀ a, (![0, 0] : Fin 2 → Nat) a + S1024x384.size a ≤ S1024x384.size a
  h_S1024x384 : 0 < S1024x384.numel
  gather_S100000x128_S131072x1_S131072x128_1_0_n_n_0_1_1128_wf : GatherDims.WF S100000x128 S131072x1 S131072x128 [1] [0] [] [0] [] 1 ![1, 128]
  gather_S500000x128_S131072x1_S131072x128_1_0_n_n_0_1_1128_wf : GatherDims.WF S500000x128 S131072x1 S131072x128 [1] [0] [] [0] [] 1 ![1, 128]
  dot_S1024x128_S128x1152_S1024x1152_1_0_0_1_n_n_wf : DotDims.WF S1024x128 S128x1152 S1024x1152 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .bf16 = 32 ∨ (Rect.block (s := S131072x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S131072x128.size a
  hwx0_1 : ∀ i : grid0.Coords, EltTy.bits .bf16 = 32 ∨ (Rect.block (s := S131072x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S131072x128.size a
  hwx0_2 : ∀ i : grid0.Coords, EltTy.bits .bf16 = 32 ∨ (Rect.block (s := S131072x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S131072x1.size a
  hwx0_3 : ∀ i : grid0.Coords, EltTy.bits .f32 = 32 ∨ (Rect.block (s := S131072x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384x1152.size a ≤ S384x1152.size a
  hwx0_6 : ∀ i : grid0.Coords, EltTy.bits .bf16 = 32 ∨ (Rect.block (s := S384x1152) S384x1152.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1152.size a ≤ S1x1152.size a
  hwx0_7 : ∀ i : grid0.Coords, EltTy.bits .f32 = 32 ∨ (Rect.block (s := S1x1152) S1x1152.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x384.size a ≤ S131072x384.size a
  hwx0_8 : ∀ i : grid0.Coords, EltTy.bits .f32 = 32 ∨ (Rect.block (s := S131072x384) S1024x384.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x384.size a ≤ S131072x384.size a
  hwx0_9 : ∀ i : grid0.Coords, EltTy.bits .f32 = 32 ∨ (Rect.block (s := S131072x384) S1024x384.size (cc0_transform_9 i) (hinb0_9 i)).WholeWords (EltTy.packing .f32)

variable [Facts₀]

def gather_S100000x128_S131072x1_S131072x128_1_0_n_n_0_1_1128 : GatherDims S100000x128 S131072x1 S131072x128 where
  offsetDims := [1]
  collapsedSliceDims := [0]
  operandBatchingDims := []
  startIndicesBatchingDims := []
  startIndexMap := [0]
  indexVectorDim := 1
  sliceSizes := ![1, 128]
  wf := gather_S100000x128_S131072x1_S131072x128_1_0_n_n_0_1_1128_wf
def gather_S500000x128_S131072x1_S131072x128_1_0_n_n_0_1_1128 : GatherDims S500000x128 S131072x1 S131072x128 where
  offsetDims := [1]
  collapsedSliceDims := [0]
  operandBatchingDims := []
  startIndicesBatchingDims := []
  startIndexMap := [0]
  indexVectorDim := 1
  sliceSizes := ![1, 128]
  wf := gather_S500000x128_S131072x1_S131072x128_1_0_n_n_0_1_1128_wf
def dot_S1024x128_S128x1152_S1024x1152_1_0_0_1_n_n : DotDims S1024x128 S128x1152 S1024x1152 where
  lhsContracting := [1]
  rhsContracting := [0]
  lhsNonContracting := [0]
  rhsNonContracting := [1]
  lhsBatch := []
  rhsBatch := []
  wf := dot_S1024x128_S128x1152_S1024x1152_1_0_0_1_n_n_wf

abbrev win0_0 : Pipeline.Window sig grid0 :=
  Pipeline.Window.ofSpec (Memref.whole main_v7) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S384x1152.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S1x1152.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v39_0) S1024x384.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v39_1) S1024x384.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072 : Shape := ⟨1, ![131072]⟩
abbrev S100000x128 : Shape := ⟨2, ![100000, 128]⟩
abbrev S500000x128 : Shape := ⟨2, ![500000, 128]⟩
abbrev S128 : Shape := ⟨1, ![128]⟩
abbrev S1536x384 : Shape := ⟨2, ![1536, 384]⟩
abbrev S1536 : Shape := ⟨1, ![1536]⟩
abbrev S131072x1 : Shape := ⟨2, ![131072, 1]⟩
abbrev S1x128 : Shape := ⟨2, ![1, 128]⟩
abbrev S131072x128 : Shape := ⟨2, ![131072, 128]⟩
abbrev S_ : Shape := ⟨0, ![]⟩
abbrev S131072x384 : Shape := ⟨2, ![131072, 384]⟩
abbrev S384x1536 : Shape := ⟨2, ![384, 1536]⟩
abbrev S131072x1536 : Shape := ⟨2, ![131072, 1536]⟩
abbrev S1x1536 : Shape := ⟨2, ![1, 1536]⟩

abbrev nBuf : Space → Nat
  | .hbm => 82
  | .vmem => 0
  | .smem => 0
  | _ => 0

abbrev bufTy : (tb : Table) → Fin (tcTables nBuf tb) → BufTy
  | .hbm, ⟨0, _⟩ => ⟨S131072, .i32⟩
  | .hbm, ⟨1, _⟩ => ⟨S131072, .i32⟩
  | .hbm, ⟨2, _⟩ => ⟨S131072, .f32⟩
  | .hbm, ⟨3, _⟩ => ⟨S131072, .i32⟩
  | .hbm, ⟨4, _⟩ => ⟨S100000x128, .f32⟩
  | .hbm, ⟨5, _⟩ => ⟨S500000x128, .f32⟩
  | .hbm, ⟨6, _⟩ => ⟨S128, .f32⟩
  | .hbm, ⟨7, _⟩ => ⟨S128, .f32⟩
  | .hbm, ⟨8, _⟩ => ⟨S1536x384, .f32⟩
  | .hbm, ⟨9, _⟩ => ⟨S1536x384, .f32⟩
  | .hbm, ⟨10, _⟩ => ⟨S1536, .f32⟩
  | .hbm, ⟨11, _⟩ => ⟨S1536, .f32⟩
  | .hbm, ⟨12, _⟩ => ⟨S131072x1, .f32⟩
  | .hbm, ⟨13, _⟩ => ⟨S1x128, .f32⟩
  | .hbm, ⟨14, _⟩ => ⟨S131072x128, .f32⟩
  | .hbm, ⟨15, _⟩ => ⟨S131072x128, .f32⟩
  | .hbm, ⟨16, _⟩ => ⟨S131072x128, .f32⟩
  | .hbm, ⟨17, _⟩ => ⟨S1x128, .f32⟩
  | .hbm, ⟨18, _⟩ => ⟨S131072x128, .f32⟩
  | .hbm, ⟨19, _⟩ => ⟨S131072x128, .f32⟩
  | .hbm, ⟨20, _⟩ => ⟨S131072x128, .f32⟩
  | .hbm, ⟨21, _⟩ => ⟨S_, .i32⟩
  | .hbm, ⟨22, _⟩ => ⟨S131072, .i32⟩
  | .hbm, ⟨23, _⟩ => ⟨S131072, .i1⟩
  | .hbm, ⟨24, _⟩ => ⟨S_, .i32⟩
  | .hbm, ⟨25, _⟩ => ⟨S131072, .i32⟩
  | .hbm, ⟨26, _⟩ => ⟨S131072, .i32⟩
  | .hbm, ⟨27, _⟩ => ⟨S131072, .i32⟩
  | .hbm, ⟨28, _⟩ => ⟨S131072x1, .i32⟩
  | .hbm, ⟨29, _⟩ => ⟨S131072x128, .f32⟩
  | .hbm, ⟨30, _⟩ => ⟨S_, .i32⟩
  | .hbm, ⟨31, _⟩ => ⟨S131072, .i32⟩
  | .hbm, ⟨32, _⟩ => ⟨S131072, .i1⟩
  | .hbm, ⟨33, _⟩ => ⟨S_, .i32⟩
  | .hbm, ⟨34, _⟩ => ⟨S131072, .i32⟩
  | .hbm, ⟨35, _⟩ => ⟨S131072, .i32⟩
  | .hbm, ⟨36, _⟩ => ⟨S131072, .i32⟩
  | .hbm, ⟨37, _⟩ => ⟨S131072x1, .i32⟩
  | .hbm, ⟨38, _⟩ => ⟨S131072x128, .f32⟩
  | .hbm, ⟨39, _⟩ => ⟨S131072x128, .f32⟩
  | .hbm, ⟨40, _⟩ => ⟨S_, .i32⟩
  | .hbm, ⟨41, _⟩ => ⟨S131072, .i32⟩
  | .hbm, ⟨42, _⟩ => ⟨S131072, .i1⟩
  | .hbm, ⟨43, _⟩ => ⟨S_, .i32⟩
  | .hbm, ⟨44, _⟩ => ⟨S131072, .i32⟩
  | .hbm, ⟨45, _⟩ => ⟨S131072, .i32⟩
  | .hbm, ⟨46, _⟩ => ⟨S131072, .i32⟩
  | .hbm, ⟨47, _⟩ => ⟨S131072x1, .i32⟩
  | .hbm, ⟨48, _⟩ => ⟨S131072x128, .f32⟩
  | .hbm, ⟨49, _⟩ => ⟨S131072x384, .f32⟩
  | .hbm, ⟨50, _⟩ => ⟨S384x1536, .f32⟩
  | .hbm, ⟨51, _⟩ => ⟨S131072x1536, .f32⟩
  | .hbm, ⟨52, _⟩ => ⟨S1x1536, .f32⟩
  | .hbm, ⟨53, _⟩ => ⟨S131072x1536, .f32⟩
  | .hbm, ⟨54, _⟩ => ⟨S131072x1536, .f32⟩
  | .hbm, ⟨55, _⟩ => ⟨S1x1536, .f32⟩
  | .hbm, ⟨56, _⟩ => ⟨S131072x1536, .f32⟩
  | .hbm, ⟨57, _⟩ => ⟨S131072x1536, .f32⟩
  | .hbm, ⟨58, _⟩ => ⟨S131072x384, .f32⟩
  | .hbm, ⟨59, _⟩ => ⟨S131072x384, .f32⟩
  | .hbm, ⟨60, _⟩ => ⟨S131072x384, .f32⟩
  | .hbm, ⟨61, _⟩ => ⟨S131072x384, .f32⟩
  | .hbm, ⟨62, _⟩ => ⟨S131072x384, .f32⟩
  | .hbm, ⟨63, _⟩ => ⟨S131072x384, .f32⟩
  | .hbm, ⟨64, _⟩ => ⟨S_, .f32⟩
  | .hbm, ⟨65, _⟩ => ⟨S131072x384, .f32⟩
  | .hbm, ⟨66, _⟩ => ⟨S131072x384, .f32⟩
  | .hbm, ⟨67, _⟩ => ⟨S_, .f32⟩
  | .hbm, ⟨68, _⟩ => ⟨S131072x384, .f32⟩
  | .hbm, ⟨69, _⟩ => ⟨S131072x384, .f32⟩
  | .hbm, ⟨70, _⟩ => ⟨S131072x384, .f32⟩
  | .hbm, ⟨71, _⟩ => ⟨S131072x384, .f32⟩
  | .hbm, ⟨72, _⟩ => ⟨S131072x384, .f32⟩
  | .hbm, ⟨73, _⟩ => ⟨S131072x384, .f32⟩
  | .hbm, ⟨74, _⟩ => ⟨S_, .f32⟩
  | .hbm, ⟨75, _⟩ => ⟨S131072x384, .f32⟩
  | .hbm, ⟨76, _⟩ => ⟨S131072x384, .f32⟩
  | .hbm, ⟨77, _⟩ => ⟨S_, .f32⟩
  | .hbm, ⟨78, _⟩ => ⟨S131072x384, .f32⟩
  | .hbm, ⟨79, _⟩ => ⟨S131072x384, .f32⟩
  | .hbm, ⟨80, _⟩ => ⟨S131072x384, .f32⟩
  | .hbm, ⟨81, _⟩ => ⟨S131072x384, .f32⟩
  | _, _ => ⟨S131072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_6 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  bcast_S131072_S131072x1_0 : S131072.BroadcastsInDim S131072x1 (![0] : Fin 1 → Fin S131072x1.rank)
  bcast_S128_S1x128_1 : S128.BroadcastsInDim S1x128 (![1] : Fin 1 → Fin S1x128.rank)
  bcast_S131072x1_S131072x128_0_1 : S131072x1.BroadcastsInDim S131072x128 (![0, 1] : Fin 2 → Fin S131072x128.rank)
  bcast_S1x128_S131072x128_0_1 : S1x128.BroadcastsInDim S131072x128 (![0, 1] : Fin 2 → Fin S131072x128.rank)
  bcast_S_S131072 : S_.BroadcastsInDim S131072 (![] : Fin 0 → Fin S131072.rank)
  concatenates_S131072x128_S131072x128_S131072x128_S131072x384_d1 : Shape.Concatenates [S131072x128, S131072x128, S131072x128] S131072x384 1
  transposes_S1536x384_S384x1536_1_0 : S1536x384.Transposes [1, 0] S384x1536
  bcast_S1536_S1x1536_1 : S1536.BroadcastsInDim S1x1536 (![1] : Fin 1 → Fin S1x1536.rank)
  bcast_S1x1536_S131072x1536_0_1 : S1x1536.BroadcastsInDim S131072x1536 (![0, 1] : Fin 2 → Fin S131072x1536.rank)
  slices_S131072x1536_S131072x384_0_0 : S131072x1536.Slices ![0, 0] S131072x384
  slices_S131072x1536_S131072x384_0_384 : S131072x1536.Slices ![0, 384] S131072x384
  slices_S131072x1536_S131072x384_0_768 : S131072x1536.Slices ![0, 768] S131072x384
  slices_S131072x1536_S131072x384_0_1152 : S131072x1536.Slices ![0, 1152] S131072x384
  bcast_S_S131072x384 : S_.BroadcastsInDim S131072x384 (![] : Fin 0 → Fin S131072x384.rank)
  gather_S100000x128_S131072x1_S131072x128_1_0_n_n_0_1_1128_wf : GatherDims.WF S100000x128 S131072x1 S131072x128 [1] [0] [] [0] [] 1 ![1, 128]
  gather_S500000x128_S131072x1_S131072x128_1_0_n_n_0_1_1128_wf : GatherDims.WF S500000x128 S131072x1 S131072x128 [1] [0] [] [0] [] 1 ![1, 128]
  dot_S131072x384_S384x1536_S131072x1536_1_0_0_1_n_n_wf : DotDims.WF S131072x384 S384x1536 S131072x1536 [1] [0] [0] [1] [] []

variable [Facts₀]

def gather_S100000x128_S131072x1_S131072x128_1_0_n_n_0_1_1128 : GatherDims S100000x128 S131072x1 S131072x128 where
  offsetDims := [1]
  collapsedSliceDims := [0]
  operandBatchingDims := []
  startIndicesBatchingDims := []
  startIndexMap := [0]
  indexVectorDim := 1
  sliceSizes := ![1, 128]
  wf := gather_S100000x128_S131072x1_S131072x128_1_0_n_n_0_1_1128_wf
def gather_S500000x128_S131072x1_S131072x128_1_0_n_n_0_1_1128 : GatherDims S500000x128 S131072x1 S131072x128 where
  offsetDims := [1]
  collapsedSliceDims := [0]
  operandBatchingDims := []
  startIndicesBatchingDims := []
  startIndexMap := [0]
  indexVectorDim := 1
  sliceSizes := ![1, 128]
  wf := gather_S500000x128_S131072x1_S131072x128_1_0_n_n_0_1_1128_wf
def dot_S131072x384_S384x1536_S131072x1536_1_0_0_1_n_n : DotDims S131072x384 S384x1536 S131072x1536 where
  lhsContracting := [1]
  rhsContracting := [0]
  lhsNonContracting := [0]
  rhsNonContracting := [1]
  lhsBatch := []
  rhsBatch := []
  wf := dot_S131072x384_S384x1536_S131072x1536_1_0_0_1_n_n_wf

class Facts : Prop extends Facts₀ where

variable [Facts]
-- ==== Proof.KernelRegion.lean ====
/-
  The region of @main as the launch finds it. @main is forty-five host operations — the three row gathers
  (each index first wrapped: a negative index has the table's length added), their change of format, the
  reshapes of the time column, the frequency row and the phase row, the three gate blocks of the input
  weight cut out, stacked and transposed, the two biases added, cut and stacked the same way — and then ONE
  region over 128 grid points. Here: the buffer contents when the region is entered (the host operations
  applied to the launch memory), that none of them writes an argument array, which block of its array a
  window shows at a grid point, and that a run ending with the windows' arrays rewritten and every other
  buffer as the region found it leaves the twelve argument arrays as launched (no window stages an
  argument array itself: every window's array is a host operation's result).
-/
import proofs.«153466_j36593121362101_2_alg».proof.Proof.Gen.Kernel.Launch
import proofs.«153466_j36593121362101_2_alg».proof.Proof.Gen.Kernel.Skeleton
import proofs.«153466_j36593121362101_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the host operations applied, in order, to the launch memory. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    the block index has not moved since it did, for any proof data over `V` whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there or
    the block index has not moved since it did, for any proof data over `V` whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there or
    the block index has not moved since it did, for any proof data over `V` whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there or
    the block index has not moved since it did, for any proof data over `V` whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there or
    the block index has not moved since it did, for any proof data over `V` whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the pipeline fetched it there or
    the block index has not moved since it did, for any proof data over `V` whose body leaves the block in place. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the pipeline fetched it there or
    the block index has not moved since it did, for any proof data over `V` whose body leaves the block in place. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether the pipeline fetched it there or
    the block index has not moved since it did, for any proof data over `V` whose body leaves the block in place. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run of the region -/

/-- A run that ends with every window's array at what the write-backs leave and every other unscoped buffer as the
    region found it ends with the twelve argument arrays as launched: none is a window's array, and the host
    operations wrote none. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

end Cert.Kernel.Region

end
-- ==== Proof.KernelBody.lean ====
/-
  One grid point of the kernel. The body reads its eight input blocks whole (the weight block as three row
  bands of 128), forms the 1152 gate pre-activations of each of its 1024 rows —
  (src + tgt) · W[0:128] + cos(t · freq + phase) · W[128:256] + edge · W[256:384] + bias — and stores
  c = σ(gate_i) · tanh(gate_g) and h = σ(gate_o) · tanh(c), each over its whole output block (after a load
  of that block whose value it never uses). Here: what each output block holds afterwards, as the one
  store's value over the input blocks, and the body's triple: run on whole staging buffers, inputs at
  known contents and outputs at any, it ends with the inputs untouched and the outputs at those values.
-/
import proofs.«153466_j36593121362101_2_alg».proof.Proof.KernelRegion

set_option maxRecDepth 16384

noncomputable section

namespace Cert.Kernel.Region

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's rectangles -/

abbrev rTime : Rect S1024x1 := Rect.unit (s := S1024x1) ![0, 0] S1024x1.size inb_S1024x1_S1024x1_0_0
abbrev rRow : Rect S1x128 := Rect.unit (s := S1x128) ![0, 0] S1x128.size inb_S1x128_S1x128_0_0
abbrev rFeat : Rect S1024x128 := Rect.unit (s := S1024x128) ![0, 0] S1024x128.size inb_S1024x128_S1024x128_0_0
abbrev rW0 : Rect S384x1152 := Rect.unit (s := S384x1152) ![0, 0] S128x1152.size inb_S384x1152_S128x1152_0_0
abbrev rW1 : Rect S384x1152 := Rect.unit (s := S384x1152) ![128, 0] S128x1152.size inb_S384x1152_S128x1152_128_0
abbrev rW2 : Rect S384x1152 := Rect.unit (s := S384x1152) ![256, 0] S128x1152.size inb_S384x1152_S128x1152_256_0
abbrev rBias : Rect S1x1152 := Rect.unit (s := S1x1152) ![0, 0] S1x1152.size inb_S1x1152_S1x1152_0_0
abbrev rOut : Rect S1024x384 := Rect.unit (s := S1024x384) ![0, 0] S1024x384.size inb_S1024x384_S1024x384_0_0

/-! ## What the body leaves in the two output blocks -/

/-- The 1152 gate pre-activations of the block's rows, from the eight input blocks. -/
def gates (x0 : Vec F S1024x128 .bf16) (x1 : Vec F S1024x128 .bf16) (x2 : Vec F S1024x128 .bf16) (x3 : Vec F S1024x1 .f32) (x4 : Vec F S1x128 .f32) (x5 : Vec F S1x128 .f32) (x6 : Vec F S384x1152 .bf16) (x7 : Vec F S1x1152 .f32) : FVec F S1024x1152 .f32 :=
  k0_pay3 (View.ld x3 rTime) (View.ld x4 rRow) (View.ld x5 rRow) (View.ld x0 rFeat) (View.ld x1 rFeat) (View.ld x2 rFeat)
    (View.ld x6 rW0) (View.ld x6 rW1) (View.ld x6 rW2) (View.ld x7 rBias)

/-- Their first 384 columns (the input gate's). -/
def gatesI (x0 : Vec F S1024x128 .bf16) (x1 : Vec F S1024x128 .bf16) (x2 : Vec F S1024x128 .bf16) (x3 : Vec F S1024x1 .f32) (x4 : Vec F S1x128 .f32) (x5 : Vec F S1x128 .f32) (x6 : Vec F S384x1152 .bf16) (x7 : Vec F S1x1152 .f32) : FVec F S1024x384 .f32 :=
  k0_pay4 (View.ld x3 rTime) (View.ld x4 rRow) (View.ld x5 rRow) (View.ld x0 rFeat) (View.ld x1 rFeat) (View.ld x2 rFeat)
    (View.ld x6 rW0) (View.ld x6 rW1) (View.ld x6 rW2) (View.ld x7 rBias)

/-- The block of h after the body: its one store. -/
def outH (x0 : Vec F S1024x128 .bf16) (x1 : Vec F S1024x128 .bf16) (x2 : Vec F S1024x128 .bf16) (x3 : Vec F S1024x1 .f32) (x4 : Vec F S1x128 .f32) (x5 : Vec F S1x128 .f32) (x6 : Vec F S384x1152 .bf16) (x7 : Vec F S1x1152 .f32) : Vec F S1024x384 .f32 :=
  View.canon [⟨rOut, k0_pay2 (gates x0 x1 x2 x3 x4 x5 x6 x7) (gatesI x0 x1 x2 x3 x4 x5 x6 x7)⟩]

/-- The block of c after the body: its one store. -/
def outC (x0 : Vec F S1024x128 .bf16) (x1 : Vec F S1024x128 .bf16) (x2 : Vec F S1024x128 .bf16) (x3 : Vec F S1024x1 .f32) (x4 : Vec F S1x128 .f32) (x5 : Vec F S1x128 .f32) (x6 : Vec F S384x1152 .bf16) (x7 : Vec F S1x1152 .f32) : Vec F S1024x384 .f32 :=
  View.canon [⟨rOut, k0_pay1 (gates x0 x1 x2 x3 x4 x5 x6 x7) (gatesI x0 x1 x2 x3 x4 x5 x6 x7)⟩]

/-- The one store covers the block. -/
theorem coverOut (p0 : Vec F S1024x384 .f32) (y : S1024x384.Idx) :
    ∃ pc ∈ ([⟨rOut, p0⟩] : List (View.Piece (Elt F) S1024x384 .f32)), y ∈ pc.1.set :=
  View.cover_of_tiled [⟨rOut, p0⟩] S1024x384.size (by rfl) y

/-! ## The body's triple -/

set_option maxHeartbeats 4000000 in
/-- The body at coordinates `i` on whole staging buffers, the inputs' at contents `x0 … x7` and the outputs' at anything,
    runs to a continuation that is given the inputs' as they were and the outputs' at `outH` / `outC` of the inputs'. -/
theorem sound_kernel (c : Dev nD) (E : Set ℕ) (i : grid0.Coords) (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S384x1152 .bf16) (harg7 : arg7.IsWhole) (arg8 : Memref sig .tc .vmem S1x1152 .f32) (harg8 : arg8.IsWhole) (arg9 : Memref sig .tc .vmem S1024x384 .f32) (harg9 : arg9.IsWhole) (arg10 : Memref sig .tc .vmem S1024x384 .f32) (harg10 : arg10.IsWhole)
    (x0 : Vec F S1024x128 .bf16) (x1 : Vec F S1024x128 .bf16) (x2 : Vec F S1024x128 .bf16) (x3 : Vec F S1024x1 .f32) (x4 : Vec F S1x128 .f32) (x5 : Vec F S1x128 .f32) (x6 : Vec F S384x1152 .bf16) (x7 : Vec F S1x1152 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outH x0 x1 x2 x3 x4 x5 x6 x7) ∗ owns (c : Thread nD τ) arg10 fullShare (outC x0 x1 x2 x3 x4 x5 x6 x7)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (coverOut _)
  iexists _; isplitr
  swap; · iexact H9
  ipureintro
  try dsimp only
  exact View.read_writes_eq_canon _ _ _ (coverOut _)

end Cert.Kernel.Region

end
-- ==== Proof.KernelRun.lean ====
/-
  The region's run. The proof data of the one pipeline: every window's array is what the host operations left;
  after the body at grid point `t` an input's staging buffer still holds its block and the two outputs' hold
  `outH` / `outC` of the eight input blocks at `t`; the body needs nothing else (the invariant is the scoped rest
  and the generator register, passed through unread). From the body's triple this is the body obligation at
  every point, and the library's frame run then says: every weakly fair execution of @main terminates without a
  fault, every window's array ends at what the write-backs of those blocks leave, and every other buffer ends as
  the region found it — in particular the twelve argument arrays end as launched.
-/
import proofs.«153466_j36593121362101_2_alg».proof.Proof.KernelBody

set_option maxRecDepth 16384

noncomputable section

namespace Cert.Kernel.Region

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outH (iblk m c 0 t) (iblk m c 1 t) (iblk m c 2 t) (iblk m c 3 t) (iblk m c 4 t) (iblk m c 5 t) (iblk m c 6 t) (iblk m c 7 t)
    | ⟨9, _⟩ => outC (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- Its arrays are the region-entry contents. -/
theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_h (c : Dev nD) (t : Fin cfg0.N) : (dats m 0 c).after 8 t = outH (iblk m c 0 t) (iblk m c 1 t) (iblk m c 2 t) (iblk m c 3 t) (iblk m c 4 t) (iblk m c 5 t) (iblk m c 6 t) (iblk m c 7 t) := by dsimp only [dats]
theorem after_c (c : Dev nD) (t : Fin cfg0.N) : (dats m 0 c).after 9 t = outC (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d
theorem before7 (c : Dev nD) (t : Fin cfg0.N) (d) : (dats m 0 c).before 7 t d = iblk m c 7 t :=
  before_in7 m (dats m 0 c) (A_eq m c 7) (after_in7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any point: the inputs' staging buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_h, after_c]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of @main terminates without a fault, every
    window's array ends at what the write-backs leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and the twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.Kernel.Region

end
-- ==== Proof.KernelIdealRegion.lean ====
/-
  The region of @main as the launch finds it. @main is forty-five host operations — the three row gathers
  (each index first wrapped: a negative index has the table's length added), their change of format, the
  reshapes of the time column, the frequency row and the phase row, the three gate blocks of the input
  weight cut out, stacked and transposed, the two biases added, cut and stacked the same way — and then ONE
  region over 128 grid points. Here: the buffer contents when the region is entered (the host operations
  applied to the launch memory), that none of them writes an argument array, which block of its array a
  window shows at a grid point, and that a run ending with the windows' arrays rewritten and every other
  buffer as the region found it leaves the twelve argument arrays as launched (no window stages an
  argument array itself: every window's array is a host operation's result).
-/
import proofs.«153466_j36593121362101_2_alg».proof.Proof.Gen.KernelIdeal.Launch
import proofs.«153466_j36593121362101_2_alg».proof.Proof.Gen.KernelIdeal.Skeleton
import proofs.«153466_j36593121362101_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the host operations applied, in order, to the launch memory. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    the block index has not moved since it did, for any proof data over `V` whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there or
    the block index has not moved since it did, for any proof data over `V` whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there or
    the block index has not moved since it did, for any proof data over `V` whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there or
    the block index has not moved since it did, for any proof data over `V` whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there or
    the block index has not moved since it did, for any proof data over `V` whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the pipeline fetched it there or
    the block index has not moved since it did, for any proof data over `V` whose body leaves the block in place. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the pipeline fetched it there or
    the block index has not moved since it did, for any proof data over `V` whose body leaves the block in place. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether the pipeline fetched it there or
    the block index has not moved since it did, for any proof data over `V` whose body leaves the block in place. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run of the region -/

/-- A run that ends with every window's array at what the write-backs leave and every other unscoped buffer as the
    region found it ends with the twelve argument arrays as launched: none is a window's array, and the host
    operations wrote none. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

end Cert.KernelIdeal.Region

end
-- ==== Proof.KernelIdealBody.lean ====
/-
  One grid point of the kernel. The body reads its eight input blocks whole (the weight block as three row
  bands of 128), forms the 1152 gate pre-activations of each of its 1024 rows —
  (src + tgt) · W[0:128] + cos(t · freq + phase) · W[128:256] + edge · W[256:384] + bias — and stores
  c = σ(gate_i) · tanh(gate_g) and h = σ(gate_o) · tanh(c), each over its whole output block (after a load
  of that block whose value it never uses). Here: what each output block holds afterwards, as the one
  store's value over the input blocks, and the body's triple: run on whole staging buffers, inputs at
  known contents and outputs at any, it ends with the inputs untouched and the outputs at those values.
-/
import proofs.«153466_j36593121362101_2_alg».proof.Proof.KernelIdealRegion

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's rectangles -/

abbrev rTime : Rect S1024x1 := Rect.unit (s := S1024x1) ![0, 0] S1024x1.size inb_S1024x1_S1024x1_0_0
abbrev rRow : Rect S1x128 := Rect.unit (s := S1x128) ![0, 0] S1x128.size inb_S1x128_S1x128_0_0
abbrev rFeat : Rect S1024x128 := Rect.unit (s := S1024x128) ![0, 0] S1024x128.size inb_S1024x128_S1024x128_0_0
abbrev rW0 : Rect S384x1152 := Rect.unit (s := S384x1152) ![0, 0] S128x1152.size inb_S384x1152_S128x1152_0_0
abbrev rW1 : Rect S384x1152 := Rect.unit (s := S384x1152) ![128, 0] S128x1152.size inb_S384x1152_S128x1152_128_0
abbrev rW2 : Rect S384x1152 := Rect.unit (s := S384x1152) ![256, 0] S128x1152.size inb_S384x1152_S128x1152_256_0
abbrev rBias : Rect S1x1152 := Rect.unit (s := S1x1152) ![0, 0] S1x1152.size inb_S1x1152_S1x1152_0_0
abbrev rOut : Rect S1024x384 := Rect.unit (s := S1024x384) ![0, 0] S1024x384.size inb_S1024x384_S1024x384_0_0

/-! ## What the body leaves in the two output blocks -/

/-- The 1152 gate pre-activations of the block's rows, from the eight input blocks. -/
def gates (x0 : Vec F S1024x128 .bf16) (x1 : Vec F S1024x128 .bf16) (x2 : Vec F S1024x128 .bf16) (x3 : Vec F S1024x1 .f32) (x4 : Vec F S1x128 .f32) (x5 : Vec F S1x128 .f32) (x6 : Vec F S384x1152 .bf16) (x7 : Vec F S1x1152 .f32) : FVec F S1024x1152 .f32 :=
  k0_pay3 (View.ld x3 rTime) (View.ld x4 rRow) (View.ld x5 rRow) (View.ld x0 rFeat) (View.ld x1 rFeat) (View.ld x2 rFeat)
    (View.ld x6 rW0) (View.ld x6 rW1) (View.ld x6 rW2) (View.ld x7 rBias)

/-- Their first 384 columns (the input gate's). -/
def gatesI (x0 : Vec F S1024x128 .bf16) (x1 : Vec F S1024x128 .bf16) (x2 : Vec F S1024x128 .bf16) (x3 : Vec F S1024x1 .f32) (x4 : Vec F S1x128 .f32) (x5 : Vec F S1x128 .f32) (x6 : Vec F S384x1152 .bf16) (x7 : Vec F S1x1152 .f32) : FVec F S1024x384 .f32 :=
  k0_pay4 (View.ld x3 rTime) (View.ld x4 rRow) (View.ld x5 rRow) (View.ld x0 rFeat) (View.ld x1 rFeat) (View.ld x2 rFeat)
    (View.ld x6 rW0) (View.ld x6 rW1) (View.ld x6 rW2) (View.ld x7 rBias)

/-- The block of h after the body: its one store. -/
def outH (x0 : Vec F S1024x128 .bf16) (x1 : Vec F S1024x128 .bf16) (x2 : Vec F S1024x128 .bf16) (x3 : Vec F S1024x1 .f32) (x4 : Vec F S1x128 .f32) (x5 : Vec F S1x128 .f32) (x6 : Vec F S384x1152 .bf16) (x7 : Vec F S1x1152 .f32) : Vec F S1024x384 .f32 :=
  View.canon [⟨rOut, k0_pay2 (gates x0 x1 x2 x3 x4 x5 x6 x7) (gatesI x0 x1 x2 x3 x4 x5 x6 x7)⟩]

/-- The block of c after the body: its one store. -/
def outC (x0 : Vec F S1024x128 .bf16) (x1 : Vec F S1024x128 .bf16) (x2 : Vec F S1024x128 .bf16) (x3 : Vec F S1024x1 .f32) (x4 : Vec F S1x128 .f32) (x5 : Vec F S1x128 .f32) (x6 : Vec F S384x1152 .bf16) (x7 : Vec F S1x1152 .f32) : Vec F S1024x384 .f32 :=
  View.canon [⟨rOut, k0_pay1 (gates x0 x1 x2 x3 x4 x5 x6 x7) (gatesI x0 x1 x2 x3 x4 x5 x6 x7)⟩]

/-- The one store covers the block. -/
theorem coverOut (p0 : Vec F S1024x384 .f32) (y : S1024x384.Idx) :
    ∃ pc ∈ ([⟨rOut, p0⟩] : List (View.Piece (Elt F) S1024x384 .f32)), y ∈ pc.1.set :=
  View.cover_of_tiled [⟨rOut, p0⟩] S1024x384.size (by rfl) y

/-! ## The body's triple -/

set_option maxHeartbeats 4000000 in
/-- The body at coordinates `i` on whole staging buffers, the inputs' at contents `x0 … x7` and the outputs' at anything,
    runs to a continuation that is given the inputs' as they were and the outputs' at `outH` / `outC` of the inputs'. -/
theorem sound_kernel (c : Dev nD) (E : Set ℕ) (i : grid0.Coords) (arg1 : Memref sig .tc .vmem S1024x128 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S384x1152 .bf16) (harg7 : arg7.IsWhole) (arg8 : Memref sig .tc .vmem S1x1152 .f32) (harg8 : arg8.IsWhole) (arg9 : Memref sig .tc .vmem S1024x384 .f32) (harg9 : arg9.IsWhole) (arg10 : Memref sig .tc .vmem S1024x384 .f32) (harg10 : arg10.IsWhole)
    (x0 : Vec F S1024x128 .bf16) (x1 : Vec F S1024x128 .bf16) (x2 : Vec F S1024x128 .bf16) (x3 : Vec F S1024x1 .f32) (x4 : Vec F S1x128 .f32) (x5 : Vec F S1x128 .f32) (x6 : Vec F S384x1152 .bf16) (x7 : Vec F S1x1152 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outH x0 x1 x2 x3 x4 x5 x6 x7) ∗ owns (c : Thread nD τ) arg10 fullShare (outC x0 x1 x2 x3 x4 x5 x6 x7)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (coverOut _)
  iexists _; isplitr
  swap; · iexact H9
  ipureintro
  try dsimp only
  exact View.read_writes_eq_canon _ _ _ (coverOut _)

end Cert.KernelIdeal.Region

end
-- ==== Proof.KernelIdealRun.lean ====
/-
  The region's run. The proof data of the one pipeline: every window's array is what the host operations left;
  after the body at grid point `t` an input's staging buffer still holds its block and the two outputs' hold
  `outH` / `outC` of the eight input blocks at `t`; the body needs nothing else (the invariant is the scoped rest
  and the generator register, passed through unread). From the body's triple this is the body obligation at
  every point, and the library's frame run then says: every weakly fair execution of @main terminates without a
  fault, every window's array ends at what the write-backs of those blocks leave, and every other buffer ends as
  the region found it — in particular the twelve argument arrays end as launched.
-/
import proofs.«153466_j36593121362101_2_alg».proof.Proof.KernelIdealBody

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outH (iblk m c 0 t) (iblk m c 1 t) (iblk m c 2 t) (iblk m c 3 t) (iblk m c 4 t) (iblk m c 5 t) (iblk m c 6 t) (iblk m c 7 t)
    | ⟨9, _⟩ => outC (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- Its arrays are the region-entry contents. -/
theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_h (c : Dev nD) (t : Fin cfg0.N) : (dats m 0 c).after 8 t = outH (iblk m c 0 t) (iblk m c 1 t) (iblk m c 2 t) (iblk m c 3 t) (iblk m c 4 t) (iblk m c 5 t) (iblk m c 6 t) (iblk m c 7 t) := by dsimp only [dats]
theorem after_c (c : Dev nD) (t : Fin cfg0.N) : (dats m 0 c).after 9 t = outC (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d
theorem before7 (c : Dev nD) (t : Fin cfg0.N) (d) : (dats m 0 c).before 7 t d = iblk m c 7 t :=
  before_in7 m (dats m 0 c) (A_eq m c 7) (after_in7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any point: the inputs' staging buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_h, after_c]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of @main terminates without a fault, every
    window's array ends at what the write-backs leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and the twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.KernelIdeal.Region

end
-- ==== Proof.KernelIdealOperands.lean ====
/-
  What the host operations leave in the arrays the region's windows show.

  The three gathered arrays (node rows by source index, node rows by target index, edge rows by edge index) are the
  very arrays the reference gathers — the same wrap of a negative index, the same gather of the same table — so
  they are named by the reference's stages and never opened; the change of float format after each is the identity
  on the extended reals. The time array is the argument as a column, the frequency and phase arrays the arguments
  as rows. The weight array is the input weight's gate blocks i, g, o (rows 0…, 768…, 1152…) stacked and
  transposed: its entry (k, 384·γ + j) is the weight's entry (row_γ + j, k). The bias array is the two biases added,
  cut and stacked the same way, as a row: its entry (0, 384·γ + j) is b_ih + b_hh at row_γ + j.
-/
import proofs.«153466_j36593121362101_2_alg».proof.Proof.KernelIdealRegion
import proofs.«153466_j36593121362101_2_alg».proof.Proof.Gen.ReferenceIdeal.Read
import Idealize.ShloMosaic.Lib.Pipeline.Value
import Idealize.ShloMosaic.Lib.ValueIdx
import Idealize.ShloMosaic.Lib.StableHlo.Run

set_option maxRecDepth 16384

noncomputable section

namespace Cert.KernelIdeal.Operands

open Cert.KernelIdeal Cert.KernelIdeal.Gen Cert.KernelIdeal.Region
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ## The float argument arrays the staged operands are made of, as functions of their indices -/

/-- The cut times. -/
abbrev timeArr : S131072.Idx → EReal := m ((c : Thread nD τ).loc main_arg2)
/-- The basis frequencies. -/
abbrev freqArr : S128.Idx → EReal := m ((c : Thread nD τ).loc main_arg6)
/-- The phases. -/
abbrev phaseArr : S128.Idx → EReal := m ((c : Thread nD τ).loc main_arg7)
/-- The input weight, [1536, 384]. -/
abbrev weightArr : S1536x384.Idx → EReal := m ((c : Thread nD τ).loc main_arg8)
/-- The input bias and the hidden bias. -/
abbrev biasIArr : S1536.Idx → EReal := m ((c : Thread nD τ).loc main_arg10)
abbrev biasHArr : S1536.Idx → EReal := m ((c : Thread nD τ).loc main_arg11)

/-! ## The gathered rows -/

theorem src_rows : (V m c main_v7 : S131072x128.Idx → EReal)
    = Cert.ReferenceIdeal.Read.val_main_v15 (F := Ideal) (m ((c : Thread nD τ).loc main_arg0)) (m ((c : Thread nD τ).loc main_arg4)) := by
  dsimp only [V, hostOps0]
  after_results_simp
  rfl

theorem tgt_rows : (V m c main_v15 : S131072x128.Idx → EReal)
    = Cert.ReferenceIdeal.Read.val_main_v22 (F := Ideal) (m ((c : Thread nD τ).loc main_arg1)) (m ((c : Thread nD τ).loc main_arg4)) := by
  dsimp only [V, hostOps0]
  after_results_simp
  rfl

theorem edge_rows : (V m c main_v23 : S131072x128.Idx → EReal)
    = Cert.ReferenceIdeal.Read.val_main_v30 (F := Ideal) (m ((c : Thread nD τ).loc main_arg3)) (m ((c : Thread nD τ).loc main_arg5)) := by
  dsimp only [V, hostOps0]
  after_results_simp
  rfl

/-! ## The time column, the frequency row, the phase row -/

theorem time_col (b : Fin 131072) : (V m c main_v24 : S131072x1.Idx → EReal) (ix2 b 0) = (timeArr m c) (ix1 b) := by
  have e : (V m c main_v24 : S131072x1.Idx → EReal) = shapeCast S131072x1 (timeArr m c) shapeCasts_S131072_S131072x1 := by
    dsimp only [V, hostOps0]
    after_results_simp
    rfl
  rw [e]
  refine shapeCast_apply _ _ _ _ ?_
  refine (Shape.rowMajor_val_one (d := ![131072]) (ix1 b)).trans (Eq.trans ?_ (Shape.rowMajor_val_two (d := ![131072, 1]) (ix2 b 0)).symm)
  show b.val = b.val * 1 + 0
  omega

theorem freq_row (k : Fin 128) : (V m c main_v25 : S1x128.Idx → EReal) (ix2 0 k) = (freqArr m c) (ix1 k) := by
  have e : (V m c main_v25 : S1x128.Idx → EReal) = shapeCast S1x128 (freqArr m c) shapeCasts_S128_S1x128 := by
    dsimp only [V, hostOps0]
    after_results_simp
    rfl
  rw [e]
  refine shapeCast_apply _ _ _ _ ?_
  refine (Shape.rowMajor_val_one (d := ![128]) (ix1 k)).trans (Eq.trans ?_ (Shape.rowMajor_val_two (d := ![1, 128]) (ix2 0 k)).symm)
  show k.val = 0 * 128 + k.val
  omega

theorem phase_row (k : Fin 128) : (V m c main_v26 : S1x128.Idx → EReal) (ix2 0 k) = (phaseArr m c) (ix1 k) := by
  have e : (V m c main_v26 : S1x128.Idx → EReal) = shapeCast S1x128 (phaseArr m c) shapeCasts_S128_S1x128 := by
    dsimp only [V, hostOps0]
    after_results_simp
    rfl
  rw [e]
  refine shapeCast_apply _ _ _ _ ?_
  refine (Shape.rowMajor_val_one (d := ![128]) (ix1 k)).trans (Eq.trans ?_ (Shape.rowMajor_val_two (d := ![1, 128]) (ix2 0 k)).symm)
  show k.val = 0 * 128 + k.val
  omega

/-! ## Three equal pieces stacked along the first axis, read in each piece -/

theorem stack_rows (p0 p1 p2 : S384x384.Idx → EReal) (h : Shape.Concatenates (([⟨S384x384, p0⟩, ⟨S384x384, p1⟩, ⟨S384x384, p2⟩] : List ((s : Shape) × (s.Idx → EReal))).map (·.1)) S1152x384 0) (j k : Fin 384) :
    concatenate S1152x384 0 [⟨S384x384, p0⟩, ⟨S384x384, p1⟩, ⟨S384x384, p2⟩] h (ix2 (⟨j.val, by omega⟩ : Fin 1152) k) = p0 (ix2 j k)
    ∧ concatenate S1152x384 0 [⟨S384x384, p0⟩, ⟨S384x384, p1⟩, ⟨S384x384, p2⟩] h (ix2 (⟨384 + j.val, by omega⟩ : Fin 1152) k) = p1 (ix2 j k)
    ∧ concatenate S1152x384 0 [⟨S384x384, p0⟩, ⟨S384x384, p1⟩, ⟨S384x384, p2⟩] h (ix2 (⟨768 + j.val, by omega⟩ : Fin 1152) k) = p2 (ix2 j k) := by
  refine ⟨?_, ?_, ?_⟩
  · refine concatenate_apply_piece (0 : Fin S1152x384.rank) _ h _ 0 (by show (0 : ℕ) < 3; omega) S384x384 p0 rfl rfl 0 rfl (ix2 j k) (fun b hb => ?_) ?_
    · match b with
      | ⟨0, _⟩ => exact absurd rfl hb
      | ⟨1, _⟩ => rfl
    · show 0 + j.val = j.val
      omega
  · refine concatenate_apply_piece (0 : Fin S1152x384.rank) _ h _ 1 (by show (1 : ℕ) < 3; omega) S384x384 p1 rfl rfl 384 rfl (ix2 j k) (fun b hb => ?_) ?_
    · match b with
      | ⟨0, _⟩ => exact absurd rfl hb
      | ⟨1, _⟩ => rfl
    · rfl
  · refine concatenate_apply_piece (0 : Fin S1152x384.rank) _ h _ 2 (by show (2 : ℕ) < 3; omega) S384x384 p2 rfl rfl 768 rfl (ix2 j k) (fun b hb => ?_) ?_
    · match b with
      | ⟨0, _⟩ => exact absurd rfl hb
      | ⟨1, _⟩ => rfl
    · rfl

theorem stack_vec (p0 p1 p2 : S384.Idx → EReal) (h : Shape.Concatenates (([⟨S384, p0⟩, ⟨S384, p1⟩, ⟨S384, p2⟩] : List ((s : Shape) × (s.Idx → EReal))).map (·.1)) S1152 0) (j : Fin 384) :
    concatenate S1152 0 [⟨S384, p0⟩, ⟨S384, p1⟩, ⟨S384, p2⟩] h (ix1 (⟨j.val, by omega⟩ : Fin 1152)) = p0 (ix1 j)
    ∧ concatenate S1152 0 [⟨S384, p0⟩, ⟨S384, p1⟩, ⟨S384, p2⟩] h (ix1 (⟨384 + j.val, by omega⟩ : Fin 1152)) = p1 (ix1 j)
    ∧ concatenate S1152 0 [⟨S384, p0⟩, ⟨S384, p1⟩, ⟨S384, p2⟩] h (ix1 (⟨768 + j.val, by omega⟩ : Fin 1152)) = p2 (ix1 j) := by
  refine ⟨?_, ?_, ?_⟩
  · refine concatenate_apply_piece (0 : Fin S1152.rank) _ h _ 0 (by show (0 : ℕ) < 3; omega) S384 p0 rfl rfl 0 rfl (ix1 j) (fun b hb => ?_) ?_
    · match b with
      | ⟨0, _⟩ => exact absurd rfl hb
    · show 0 + j.val = j.val
      omega
  · refine concatenate_apply_piece (0 : Fin S1152.rank) _ h _ 1 (by show (1 : ℕ) < 3; omega) S384 p1 rfl rfl 384 rfl (ix1 j) (fun b hb => ?_) ?_
    · match b with
      | ⟨0, _⟩ => exact absurd rfl hb
    · rfl
  · refine concatenate_apply_piece (0 : Fin S1152.rank) _ h _ 2 (by show (2 : ℕ) < 3; omega) S384 p2 rfl rfl 768 rfl (ix1 j) (fun b hb => ?_) ?_
    · match b with
      | ⟨0, _⟩ => exact absurd rfl hb
    · rfl

/-! ## The weight array and the bias row -/

/-- A row band of 384 rows of the input weight, read at an entry. -/
theorem band_entry (o : Nat) (h : S1536x384.Slices ![o, 0] S384x384) (x : S1536x384.Idx → EReal) (j k : Fin 384)
    (R : Fin 1536) (hR : R.val = o + j.val) :
    extractStridedSlice S384x384 ![o, 0] x h (ix2 j k) = x (ix2 R k) :=
  extractStridedSlice_apply _ _ _ (ix2 j k) (ix2 R k) fun a => by
    match a with
    | ⟨0, _⟩ => exact hR
    | ⟨1, _⟩ => show k.val = 0 + k.val; omega

/-- A run of 384 entries of a bias vector, read at an entry. -/
theorem run_entry (o : Nat) (h : S1536.Slices ![o] S384) (x : S1536.Idx → EReal) (j : Fin 384)
    (R : Fin 1536) (hR : R.val = o + j.val) :
    extractStridedSlice S384 ![o] x h (ix1 j) = x (ix1 R) :=
  extractStridedSlice_apply _ _ _ (ix1 j) (ix1 R) fun a => by
    match a with
    | ⟨0, _⟩ => exact hR

/-- The weight array's entry (k, 384·γ + j) is the input weight's entry (row_γ + j, k), row_γ = 0, 768, 1152. -/
theorem weight_entry (j k : Fin 384) :
    (V m c main_v32 : S384x1152.Idx → EReal) (ix2 k (⟨j.val, by omega⟩ : Fin 1152)) = (weightArr m c) (ix2 (⟨j.val, by omega⟩ : Fin 1536) k)
    ∧ (V m c main_v32 : S384x1152.Idx → EReal) (ix2 k (⟨384 + j.val, by omega⟩ : Fin 1152)) = (weightArr m c) (ix2 (⟨768 + j.val, by omega⟩ : Fin 1536) k)
    ∧ (V m c main_v32 : S384x1152.Idx → EReal) (ix2 k (⟨768 + j.val, by omega⟩ : Fin 1152)) = (weightArr m c) (ix2 (⟨1152 + j.val, by omega⟩ : Fin 1536) k) := by
  have e : (V m c main_v32 : S384x1152.Idx → EReal)
      = transpose S384x1152 [1, 0] (concatenate S1152x384 0
          [⟨S384x384, extractStridedSlice S384x384 ![0, 0] (weightArr m c) slices_S1536x384_S384x384_0_0⟩,
           ⟨S384x384, extractStridedSlice S384x384 ![768, 0] (weightArr m c) slices_S1536x384_S384x384_768_0⟩,
           ⟨S384x384, extractStridedSlice S384x384 ![1152, 0] (weightArr m c) slices_S1536x384_S384x384_1152_0⟩]
          concatenates_S384x384_S384x384_S384x384_S1152x384_d0) transposes_S1152x384_S384x1152_1_0 := by
    dsimp only [V, hostOps0]
    after_results_simp
    rfl
  obtain ⟨s0, s1, s2⟩ := stack_rows _ _ _ concatenates_S384x384_S384x384_S384x384_S1152x384_d0 j k
  have tr : ∀ (x : S1152x384.Idx → EReal) (r : Fin 1152), transpose S384x1152 [1, 0] x transposes_S1152x384_S384x1152_1_0 (ix2 k r) = x (ix2 r k) := fun x r =>
    transpose_apply _ _ _ (ix2 k r) (ix2 r k) fun b => by
      match b with
      | ⟨0, _⟩ => rfl
      | ⟨1, _⟩ => rfl
  rw [e]
  exact ⟨(tr _ _).trans (s0.trans (band_entry 0 _ _ j k ⟨j.val, by omega⟩ (by show j.val = 0 + j.val; omega))),
    (tr _ _).trans (s1.trans (band_entry 768 _ _ j k ⟨768 + j.val, by omega⟩ rfl)),
    (tr _ _).trans (s2.trans (band_entry 1152 _ _ j k ⟨1152 + j.val, by omega⟩ rfl))⟩

/-- The bias row's entry (0, 384·γ + j) is the two biases added at row_γ + j. -/
theorem bias_entry (j : Fin 384) :
    (V m c main_v38 : S1x1152.Idx → EReal) (ix2 0 (⟨j.val, by omega⟩ : Fin 1152))
        = (biasIArr m c) (ix1 (⟨j.val, by omega⟩ : Fin 1536)) + (biasHArr m c) (ix1 (⟨j.val, by omega⟩ : Fin 1536))
    ∧ (V m c main_v38 : S1x1152.Idx → EReal) (ix2 0 (⟨384 + j.val, by omega⟩ : Fin 1152))
        = (biasIArr m c) (ix1 (⟨768 + j.val, by omega⟩ : Fin 1536)) + (biasHArr m c) (ix1 (⟨768 + j.val, by omega⟩ : Fin 1536))
    ∧ (V m c main_v38 : S1x1152.Idx → EReal) (ix2 0 (⟨768 + j.val, by omega⟩ : Fin 1152))
        = (biasIArr m c) (ix1 (⟨1152 + j.val, by omega⟩ : Fin 1536)) + (biasHArr m c) (ix1 (⟨1152 + j.val, by omega⟩ : Fin 1536)) := by
  have e : (V m c main_v38 : S1x1152.Idx → EReal)
      = shapeCast S1x1152 (concatenate S1152 0
          [⟨S384, extractStridedSlice S384 ![0] (addf (F := Ideal) (φ := .f32) (biasIArr m c) (biasHArr m c)) slices_S1536_S384_0⟩,
           ⟨S384, extractStridedSlice S384 ![768] (addf (F := Ideal) (φ := .f32) (biasIArr m c) (biasHArr m c)) slices_S1536_S384_768⟩,
           ⟨S384, extractStridedSlice S384 ![1152] (addf (F := Ideal) (φ := .f32) (biasIArr m c) (biasHArr m c)) slices_S1536_S384_1152⟩]
          concatenates_S384_S384_S384_S1152_d0) shapeCasts_S1152_S1x1152 := by
    dsimp only [V, hostOps0]
    after_results_simp
    rfl
  obtain ⟨s0, s1, s2⟩ := stack_vec _ _ _ concatenates_S384_S384_S384_S1152_d0 j
  have rs : ∀ (x : S1152.Idx → EReal) (r : Fin 1152), shapeCast S1x1152 x shapeCasts_S1152_S1x1152 (ix2 0 r) = x (ix1 r) := fun x r =>
    shapeCast_apply _ _ _ _ ((Shape.rowMajor_val_one (d := ![1152]) (ix1 r)).trans (Eq.trans (by
      show r.val = 0 * 1152 + r.val
      omega) (Shape.rowMajor_val_two (d := ![1, 1152]) (ix2 0 r)).symm))
  rw [e]
  exact ⟨(rs _ _).trans (s0.trans (run_entry 0 _ _ j ⟨j.val, by omega⟩ (by show j.val = 0 + j.val; omega))),
    (rs _ _).trans (s1.trans (run_entry 768 _ _ j ⟨768 + j.val, by omega⟩ rfl)),
    (rs _ _).trans (s2.trans (run_entry 1152 _ _ j ⟨1152 + j.val, by omega⟩ rfl))⟩

end Cert.KernelIdeal.Operands

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.KernelIdealPayload.lean ====
/-
  One grid point's arithmetic at an entry, over the extended reals.

  For a block row p and a gate column r (of 1152) the gate pre-activation is
      ((Σ_k (src[p,k] + tgt[p,k]) · W[k, r]  +  Σ_k cos(t[p] · freq[k] + phase[k]) · W[128 + k, r])  +  Σ_k edge[p,k] · W[256 + k, r])  +  bias[r],
  each sum over the 128 positions of its group: a matrix product into the zero accumulator is, entry by entry, the
  sum over the contracted axis; a change of float format is the identity; a load of a whole block reads the block, a
  load of a row band reads the band's rows; a column broadcast along the rows and a row broadcast along the columns
  read the column's and the row's entry. The stored values are then, at (p, j) with j of 384,
      c = σ(gate[p, j]) · tanh(gate[p, 384 + j])      and      h = σ(gate[p, 768 + j]) · tanh(c).
-/
import proofs.«153466_j36593121362101_2_alg».proof.Proof.KernelIdealBody
import proofs.«153466_j36593121362101_2_alg».proof.Proof.LibDotCols
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Payload

open Cert.KernelIdeal Cert.KernelIdeal.Gen Cert.KernelIdeal.Region
open Idealize.ShloMosaic Idealize.ShloMosaic.ValueIdx

variable (x0 x1 x2 : S1024x128.Idx → EReal) (x3 : S1024x1.Idx → EReal) (x4 x5 : S1x128.Idx → EReal) (x6 : S384x1152.Idx → EReal) (x7 : S1x1152.Idx → EReal)

/-- The gate pre-activation of block row `p` at gate column `r`, group by group. -/
def blockGate (p : Fin 1024) (r : Fin 1152) : EReal :=
  (((∑ k : Fin 128, (x0 (ix2 p k) + x1 (ix2 p k)) * x6 (ix2 (⟨k.val, by omega⟩ : Fin 384) r))
      + (∑ k : Fin 128, Ideal.cos (x3 (ix2 p 0) * x4 (ix2 0 k) + x5 (ix2 0 k)) * x6 (ix2 (⟨128 + k.val, by omega⟩ : Fin 384) r)))
    + (∑ k : Fin 128, x2 (ix2 p k) * x6 (ix2 (⟨256 + k.val, by omega⟩ : Fin 384) r)))
  + x7 (ix2 0 r)

/-! ## The pieces -/

theorem hz2 : (![0, 0] : Fin 2 → Nat) = fun _ => 0 := funext fun a => by
  match a with
  | ⟨0, _⟩ => rfl
  | ⟨1, _⟩ => rfl

/-- The matrix product of the body, into the zero accumulator, at an entry. -/
theorem product_entry (a : FVec Ideal S1024x128 .bf16) (w : FVec Ideal S128x1152 .bf16) (p : Fin 1024) (r : Fin 1152) :
    matmul dot_S1024x128_S128x1152_S1024x1152_1_0_0_1_n_n none a w (constant S1024x1152 .f32 0x00000000#32) (ix2 p r)
      = ∑ k : Fin 128, a (ix2 p k) * w (ix2 k r) :=
  Cert.Lib.DotCols.matmul_cols_apply (M := 1024) (K := 128) (N := 1152) _ rfl none a w p r

/-- A row band of the weight block, loaded and read at an entry. -/
theorem band_load (w : Vec Ideal S384x1152 .bf16) (o : Nat) (inb : ∀ a, (![o, 0] : Fin 2 → Nat) a + S128x1152.size a ≤ S384x1152.size a)
    (k : Fin 128) (r : Fin 1152) (R : Fin 384) (hR : R.val = o + k.val) :
    View.ld w (Rect.unit (s := S384x1152) ![o, 0] S128x1152.size inb) (ix2 k r) = w (ix2 R r) := by
  show w _ = w _
  refine congrArg w (funext fun a => Fin.ext ?_)
  match a with
  | ⟨0, _⟩ => show o + 1 * k.val = R.val; omega
  | ⟨1, _⟩ => show 0 + 1 * r.val = r.val; omega

/-- The time column broadcast along the columns, read at an entry. -/
theorem col_bcast (v : S1024x1.Idx → EReal) (h : S1024x1.Broadcasts S1024x128) (p : Fin 1024) (k : Fin 128) :
    broadcastTo S1024x128 v h (ix2 p k) = v (ix2 p 0) := by
  refine broadcastTo_apply v h (ix2 p k) (ix2 p 0) fun ax => ?_
  match ax with
  | ⟨0, _⟩ => show p.val = if (1024 : ℕ) = 1 then 0 else p.val; rw [if_neg (by decide)]
  | ⟨1, _⟩ => rfl

/-! ## The gates at an entry -/

theorem gates_apply (p : Fin 1024) (r : Fin 1152) :
    gates (F := Ideal) x0 x1 x2 x3 x4 x5 x6 x7 (ix2 p r) = blockGate x0 x1 x2 x3 x4 x5 x6 x7 p r := by
  unfold gates k0_pay3 blockGate
  simp only [shapeCast_self, addf_apply, View.ld_unit_zero (S := S1024x128) hz2, View.ld_unit_zero (S := S1024x1) hz2,
    View.ld_unit_zero (S := S1x128) hz2, View.ld_unit_zero (S := S1x1152) hz2]
  refine congrArg₂ (· + ·) (congrArg₂ (· + ·) (congrArg₂ (· + ·) ?_ ?_) ?_) ?_
  · refine (product_entry _ _ p r).trans (Finset.sum_congr rfl fun k _ => ?_)
    rw [addf_apply, band_load x6 0 _ k r ⟨k.val, by omega⟩ (by show k.val = 0 + k.val; omega)]
  · refine (product_entry _ _ p r).trans (Finset.sum_congr rfl fun k _ => ?_)
    rw [truncf_apply, band_load x6 128 _ k r ⟨128 + k.val, by omega⟩ rfl]
    refine congrArg₂ (· * ·) ?_ rfl
    show Ideal.cos (_ * _ + _) = _
    rw [col_bcast x3 _ p k, broadcastTo_1b_ab_apply x4 _ p k, broadcastTo_1b_ab_apply x5 _ p k]
  · refine (product_entry _ _ p r).trans (Finset.sum_congr rfl fun k _ => ?_)
    rw [band_load x6 256 _ k r ⟨256 + k.val, by omega⟩ rfl]
  · exact broadcastTo_1b_ab_apply x7 _ p r

/-- The first 384 gate columns, at an entry. -/
theorem gatesI_apply (p : Fin 1024) (j : Fin 384) :
    gatesI (F := Ideal) x0 x1 x2 x3 x4 x5 x6 x7 (ix2 p j) = blockGate x0 x1 x2 x3 x4 x5 x6 x7 p (⟨j.val, by omega⟩ : Fin 1152) := by
  unfold gatesI k0_pay4
  refine (extractStridedSlice_apply _ _ _ (ix2 p j) (ix2 p (⟨j.val, by omega⟩ : Fin 1152)) fun a => ?_).trans (gates_apply x0 x1 x2 x3 x4 x5 x6 x7 p _)
  match a with
  | ⟨0, _⟩ => show p.val = 0 + p.val; omega
  | ⟨1, _⟩ => show j.val = 0 + j.val; omega

/-- A 384-column band of the gates, at an entry. -/
theorem gate_band (o : Nat) (ho : o + 384 ≤ 1152) (h : S1024x1152.Slices ![0, o] S1024x384) (g : S1024x1152.Idx → EReal) (p : Fin 1024) (j : Fin 384) :
    extractStridedSlice S1024x384 ![0, o] g h (ix2 p j) = g (ix2 p (⟨o + j.val, by omega⟩ : Fin 1152)) :=
  extractStridedSlice_apply _ _ _ (ix2 p j) (ix2 p (⟨o + j.val, by omega⟩ : Fin 1152)) fun a => by
    match a with
    | ⟨0, _⟩ => show p.val = 0 + p.val; omega
    | ⟨1, _⟩ => rfl

/-! ## The two stored values at an entry -/

/-- The new cell state of block row `p` at unit `j`. -/
def blockCell (p : Fin 1024) (j : Fin 384) : EReal :=
  Ideal.logistic (blockGate x0 x1 x2 x3 x4 x5 x6 x7 p (⟨j.val, by omega⟩ : Fin 1152))
    * Ideal.tanh (blockGate x0 x1 x2 x3 x4 x5 x6 x7 p (⟨384 + j.val, by omega⟩ : Fin 1152))

/-- The new hidden state of block row `p` at unit `j`. -/
def blockHidden (p : Fin 1024) (j : Fin 384) : EReal :=
  Ideal.logistic (blockGate x0 x1 x2 x3 x4 x5 x6 x7 p (⟨768 + j.val, by omega⟩ : Fin 1152))
    * Ideal.tanh (blockCell x0 x1 x2 x3 x4 x5 x6 x7 p j)

theorem cellPay_apply (p : Fin 1024) (j : Fin 384) :
    k0_pay1 (F := Ideal) (gates (F := Ideal) x0 x1 x2 x3 x4 x5 x6 x7) (gatesI (F := Ideal) x0 x1 x2 x3 x4 x5 x6 x7) (ix2 p j)
      = blockCell x0 x1 x2 x3 x4 x5 x6 x7 p j := by
  unfold k0_pay1 blockCell
  show Ideal.logistic (gatesI (F := Ideal) x0 x1 x2 x3 x4 x5 x6 x7 (ix2 p j))
      * Ideal.tanh (extractStridedSlice S1024x384 ![0, 384] (gates (F := Ideal) x0 x1 x2 x3 x4 x5 x6 x7) slices_S1024x1152_o0_384_S1024x384 (ix2 p j)) = _
  rw [gatesI_apply, gate_band 384 (by omega) _ _ p j, gates_apply]

theorem hiddenPay_apply (p : Fin 1024) (j : Fin 384) :
    k0_pay2 (F := Ideal) (gates (F := Ideal) x0 x1 x2 x3 x4 x5 x6 x7) (gatesI (F := Ideal) x0 x1 x2 x3 x4 x5 x6 x7) (ix2 p j)
      = blockHidden x0 x1 x2 x3 x4 x5 x6 x7 p j := by
  unfold k0_pay2 blockHidden
  show Ideal.logistic (extractStridedSlice S1024x384 ![0, 768] (gates (F := Ideal) x0 x1 x2 x3 x4 x5 x6 x7) slices_S1024x1152_o0_768_S1024x384 (ix2 p j))
      * Ideal.tanh (k0_pay1 (F := Ideal) (gates (F := Ideal) x0 x1 x2 x3 x4 x5 x6 x7) (gatesI (F := Ideal) x0 x1 x2 x3 x4 x5 x6 x7) (ix2 p j)) = _
  rw [gate_band 768 (by omega) _ _ p j, gates_apply, cellPay_apply]

/-- The block of h the body leaves, at an entry. -/
theorem outH_apply (p : Fin 1024) (j : Fin 384) :
    outH (F := Ideal) x0 x1 x2 x3 x4 x5 x6 x7 (ix2 p j) = blockHidden x0 x1 x2 x3 x4 x5 x6 x7 p j := by
  unfold outH
  rw [View.canon_unit_zero hz2]
  exact hiddenPay_apply x0 x1 x2 x3 x4 x5 x6 x7 p j

/-- The block of c the body leaves, at an entry. -/
theorem outC_apply (p : Fin 1024) (j : Fin 384) :
    outC (F := Ideal) x0 x1 x2 x3 x4 x5 x6 x7 (ix2 p j) = blockCell x0 x1 x2 x3 x4 x5 x6 x7 p j := by
  unfold outC
  rw [View.canon_unit_zero hz2]
  exact cellPay_apply x0 x1 x2 x3 x4 x5 x6 x7 p j

end Cert.KernelIdeal.Payload

end
-- ==== Proof.CellSpec.lean ====
/-
  The mathematics of the cell, over the extended reals, and the one law that joins the two programs.

  A row `b` has a 384-long input `agg b` (its first 128 entries the sum of two gathered node rows, the next 128 the
  time encoding cos(t·freq + phase), the last 128 a gathered edge row). Gate pre-activation `r` (of 1536) of row `b`
  is  (Σ_k agg b k · w r k) + bi r + bh r.  With zero initial state the cell is  c = σ(gate_i) · tanh(gate_g)  and
  h = σ(gate_o) · tanh(c),  the gates' rows being j, 768 + j and 1152 + j (the forget gate's, 384 + j, are never
  read); σ x = 1 / (1 + e^(-x)).

  One program contracts all 384 entries at once and adds the two biases one after the other; the other contracts
  the three 128-long groups separately, adds the three partial products, and adds the two biases' sum. Both are
  the same extended real: a sum over 384 terms is the sum of its three runs of 128 (addition on the extended reals
  is commutative and associative, infinities included), and (x + p) + q = x + (p + q). No finiteness is used.
-/
import Idealize.ShloMosaic.PureOps.Ideal
import Mathlib.Algebra.BigOperators.Fin

noncomputable section

namespace Cert.CellSpec

open Idealize.ShloMosaic

/-- A sum over 384 terms is the sum of its three consecutive runs of 128, in any commutative additive monoid. -/
theorem sum_three_runs {M : Type} [AddCommMonoid M] (f : Fin 384 → M) :
    ∑ k : Fin 384, f k
      = ((∑ k : Fin 128, f ⟨k.val, by omega⟩) + (∑ k : Fin 128, f ⟨128 + k.val, by omega⟩)) + (∑ k : Fin 128, f ⟨256 + k.val, by omega⟩) := by
  have h1 := Fin.sum_univ_add (a := 128 + 128) (b := 128) (f : Fin (128 + 128 + 128) → M)
  have h2 := Fin.sum_univ_add (a := 128) (b := 128) (fun i : Fin (128 + 128) => (f : Fin (128 + 128 + 128) → M) (Fin.castAdd 128 i))
  rw [h2] at h1
  exact h1

variable (agg : Fin 131072 → Fin 384 → EReal) (w : Fin 1536 → Fin 384 → EReal) (bi bh : Fin 1536 → EReal)

/-- Gate pre-activation `r` of row `b`: the whole contraction, then the input bias, then the hidden bias. -/
def gate (b : Fin 131072) (r : Fin 1536) : EReal := ((∑ k : Fin 384, agg b k * w r k) + bi r) + bh r

/-- The new cell state of row `b` at unit `j`. -/
def cell (b : Fin 131072) (j : Fin 384) : EReal :=
  Ideal.logistic (gate agg w bi bh b ⟨j.val, by omega⟩) * Ideal.tanh (gate agg w bi bh b ⟨768 + j.val, by omega⟩)

/-- The new hidden state of row `b` at unit `j`. -/
def hidden (b : Fin 131072) (j : Fin 384) : EReal :=
  Ideal.logistic (gate agg w bi bh b ⟨1152 + j.val, by omega⟩) * Ideal.tanh (cell agg w bi bh b j)

/-- The gate computed group by group: the three 128-long partial contractions added, then the two biases' sum. -/
theorem gate_by_groups (b : Fin 131072) (r : Fin 1536) :
    gate agg w bi bh b r
      = (((∑ k : Fin 128, agg b ⟨k.val, by omega⟩ * w r ⟨k.val, by omega⟩)
            + (∑ k : Fin 128, agg b ⟨128 + k.val, by omega⟩ * w r ⟨128 + k.val, by omega⟩))
          + (∑ k : Fin 128, agg b ⟨256 + k.val, by omega⟩ * w r ⟨256 + k.val, by omega⟩)) + (bi r + bh r) := by
  unfold gate
  rw [sum_three_runs (fun k => agg b k * w r k), add_assoc]

end Cert.CellSpec

end
-- ==== Proof.ReferenceCell.lean ====
/-
  The reference program is the cell of `CellSpec`.

  Its 384-long row input is the three 128-wide arrays joined along the columns: the two gathered node rows added,
  the time encoding cos(t · freq + phase), the gathered edge row. Its gates are that array contracted against the
  transposed weight, plus the input bias, plus the hidden bias; it cuts the four gate blocks out and forms
  c = (1 / (1 + e^(-i))) · tanh g  and  h = (1 / (1 + e^(-o))) · tanh c.  Read at an index (b, j) this is
  `CellSpec.cell` / `CellSpec.hidden` of row b at unit j, word for word: 1 / (1 + e^(-x)) is the logistic function's
  definition on the extended reals.
-/
import proofs.«153466_j36593121362101_2_alg».proof.Proof.Gen.ReferenceIdeal.Read
import proofs.«153466_j36593121362101_2_alg».proof.Proof.CellSpec
import Idealize.ShloMosaic.Lib.Pipeline.Value
import Idealize.ShloMosaic.Lib.ValueIdx
import Idealize.ShloMosaic.Lib.IdealHost

noncomputable section

namespace Cert.ReferenceIdeal.Cell

open Cert.ReferenceIdeal Cert.ReferenceIdeal.Read Idealize.ShloMosaic Idealize.ShloMosaic.ValueIdx

/-- Row `b`'s input at position `k`: the reference's joined array. -/
def agg (x0 x1 : (⟨S131072, .i32⟩ : BufTy).Contents (Elt Ideal)) (x2 : (⟨S131072, .f32⟩ : BufTy).Contents (Elt Ideal)) (x3 : (⟨S131072, .i32⟩ : BufTy).Contents (Elt Ideal)) (x4 : (⟨S100000x128, .f32⟩ : BufTy).Contents (Elt Ideal)) (x5 : (⟨S500000x128, .f32⟩ : BufTy).Contents (Elt Ideal)) (x6 x7 : (⟨S128, .f32⟩ : BufTy).Contents (Elt Ideal)) (b : Fin 131072) (k : Fin 384) : EReal :=
  val_main_v31 (F := Ideal) x0 x1 x2 x3 x4 x5 x6 x7 (ix2 b k)

/-- The input weight by gate row and input position. -/
def wt (x8 : (⟨S1536x384, .f32⟩ : BufTy).Contents (Elt Ideal)) (r : Fin 1536) (k : Fin 384) : EReal := x8 (ix2 r k)

/-- A bias by gate row. -/
def bias (x : (⟨S1536, .f32⟩ : BufTy).Contents (Elt Ideal)) (r : Fin 1536) : EReal := x (ix1 r)

/-- A gate pre-activation of the reference at an index: the 384-long contraction of the row's input against the
    weight's row, then the input bias, then the hidden bias. -/
theorem gate_eq (x0 x1 : (⟨S131072, .i32⟩ : BufTy).Contents (Elt Ideal)) (x2 : (⟨S131072, .f32⟩ : BufTy).Contents (Elt Ideal)) (x3 : (⟨S131072, .i32⟩ : BufTy).Contents (Elt Ideal)) (x4 : (⟨S100000x128, .f32⟩ : BufTy).Contents (Elt Ideal)) (x5 : (⟨S500000x128, .f32⟩ : BufTy).Contents (Elt Ideal)) (x6 x7 : (⟨S128, .f32⟩ : BufTy).Contents (Elt Ideal)) (x8 : (⟨S1536x384, .f32⟩ : BufTy).Contents (Elt Ideal)) (x10 x11 : (⟨S1536, .f32⟩ : BufTy).Contents (Elt Ideal)) (b : Fin 131072) (r : Fin 1536) :
    val_main_v39 (F := Ideal) x0 x1 x2 x3 x4 x5 x6 x7 x8 x10 x11 (ix2 b r)
      = CellSpec.gate (agg x0 x1 x2 x3 x4 x5 x6 x7) (wt x8) (bias x10) (bias x11) b r := by
  rw [val_main_v39_apply, val_main_v36_apply, val_main_v33_apply, val_main_v35_apply, val_main_v34_apply,
    val_main_v38_apply, val_main_v37_apply]
  have hl : ∀ k : Fin 384, lidx_main_v33 (ix2 b r) k = ix2 b k := fun k => funext fun a => by
    match a with
    | ⟨0, _⟩ => rfl
    | ⟨1, _⟩ => rfl
  have hr : ∀ k : Fin 384, idx_main_v32 (ridx_main_v33 (ix2 b r) k) = ix2 r k := fun k => funext fun a => by
    match a with
    | ⟨0, _⟩ => rfl
    | ⟨1, _⟩ => rfl
  have h10 : idx_main_v34 (idx_main_v35 (ix2 b r)) = ix1 r := funext fun a => by
    match a with
    | ⟨0, _⟩ => rfl
  have h11 : idx_main_v37 (idx_main_v38 (ix2 b r)) = ix1 r := funext fun a => by
    match a with
    | ⟨0, _⟩ => rfl
  unfold CellSpec.gate agg wt bias
  simp only [val_main_v32_apply, hl, hr, h10, h11, Ideal.addf_def]

/-- The reference's second result (the new cell state) at an index. -/
theorem cell_eq (x0 x1 : (⟨S131072, .i32⟩ : BufTy).Contents (Elt Ideal)) (x2 : (⟨S131072, .f32⟩ : BufTy).Contents (Elt Ideal)) (x3 : (⟨S131072, .i32⟩ : BufTy).Contents (Elt Ideal)) (x4 : (⟨S100000x128, .f32⟩ : BufTy).Contents (Elt Ideal)) (x5 : (⟨S500000x128, .f32⟩ : BufTy).Contents (Elt Ideal)) (x6 x7 : (⟨S128, .f32⟩ : BufTy).Contents (Elt Ideal)) (x8 : (⟨S1536x384, .f32⟩ : BufTy).Contents (Elt Ideal)) (x10 x11 : (⟨S1536, .f32⟩ : BufTy).Contents (Elt Ideal)) (b : Fin 131072) (j : Fin 384) :
    val_main_v51 (F := Ideal) x0 x1 x2 x3 x4 x5 x6 x7 x8 x10 x11 (ix2 b j)
      = CellSpec.cell (agg x0 x1 x2 x3 x4 x5 x6 x7) (wt x8) (bias x10) (bias x11) b j := by
  have h40 : idx_main_v40 (ix2 b j) = ix2 b (⟨j.val, by omega⟩ : Fin 1536) := funext fun a => by
    match a with
    | ⟨0, _⟩ => rfl
    | ⟨1, _⟩ => rfl
  have h42 : idx_main_v42 (ix2 b j) = ix2 b (⟨768 + j.val, by omega⟩ : Fin 1536) := funext fun a => by
    match a with
    | ⟨0, _⟩ => rfl
    | ⟨1, _⟩ => rfl
  rw [val_main_v51_apply, val_main_v49_apply, val_main_v48_apply, val_main_cst_5_apply, val_main_v47_apply,
    val_main_v46_apply, val_main_cst_apply, val_main_v45_apply, val_main_v44_apply, val_main_v40_apply,
    val_main_v50_apply, val_main_v42_apply, h40, h42, gate_eq, gate_eq]
  unfold CellSpec.cell Ideal.logistic
  simp only [Ideal.mulf_def, Ideal.hostDivf_def, Ideal.ofBits_def, Ideal.ofBits_one_f32, Ideal.addf_def,
    Ideal.hostUnary_exp_def, Ideal.hostNegf_def, Ideal.negf_def, Ideal.hostUnary_tanh_def]

/-- The reference's first result (the new hidden state) at an index. -/
theorem hidden_eq (x0 x1 : (⟨S131072, .i32⟩ : BufTy).Contents (Elt Ideal)) (x2 : (⟨S131072, .f32⟩ : BufTy).Contents (Elt Ideal)) (x3 : (⟨S131072, .i32⟩ : BufTy).Contents (Elt Ideal)) (x4 : (⟨S100000x128, .f32⟩ : BufTy).Contents (Elt Ideal)) (x5 : (⟨S500000x128, .f32⟩ : BufTy).Contents (Elt Ideal)) (x6 x7 : (⟨S128, .f32⟩ : BufTy).Contents (Elt Ideal)) (x8 : (⟨S1536x384, .f32⟩ : BufTy).Contents (Elt Ideal)) (x10 x11 : (⟨S1536, .f32⟩ : BufTy).Contents (Elt Ideal)) (b : Fin 131072) (j : Fin 384) :
    val_main_v59 (F := Ideal) x0 x1 x2 x3 x4 x5 x6 x7 x8 x10 x11 (ix2 b j)
      = CellSpec.hidden (agg x0 x1 x2 x3 x4 x5 x6 x7) (wt x8) (bias x10) (bias x11) b j := by
  have h43 : idx_main_v43 (ix2 b j) = ix2 b (⟨1152 + j.val, by omega⟩ : Fin 1536) := funext fun a => by
    match a with
    | ⟨0, _⟩ => rfl
    | ⟨1, _⟩ => rfl
  rw [val_main_v59_apply, val_main_v57_apply, val_main_v56_apply, val_main_cst_7_apply, val_main_v55_apply,
    val_main_v54_apply, val_main_cst_6_apply, val_main_v53_apply, val_main_v52_apply, val_main_v43_apply,
    val_main_v58_apply, cell_eq, h43, gate_eq]
  unfold CellSpec.hidden Ideal.logistic
  simp only [Ideal.mulf_def, Ideal.hostDivf_def, Ideal.ofBits_def, Ideal.ofBits_one_f32, Ideal.addf_def,
    Ideal.hostUnary_exp_def, Ideal.hostNegf_def, Ideal.negf_def, Ideal.hostUnary_tanh_def]

/-- The first 128 positions of a row's input: the two gathered node rows added. -/
theorem agg_node (x0 x1 : (⟨S131072, .i32⟩ : BufTy).Contents (Elt Ideal)) (x2 : (⟨S131072, .f32⟩ : BufTy).Contents (Elt Ideal)) (x3 : (⟨S131072, .i32⟩ : BufTy).Contents (Elt Ideal)) (x4 : (⟨S100000x128, .f32⟩ : BufTy).Contents (Elt Ideal)) (x5 : (⟨S500000x128, .f32⟩ : BufTy).Contents (Elt Ideal)) (x6 x7 : (⟨S128, .f32⟩ : BufTy).Contents (Elt Ideal)) (b : Fin 131072) (k : Fin 128) :
    agg x0 x1 x2 x3 x4 x5 x6 x7 b ⟨k.val, by omega⟩
      = val_main_v15 (F := Ideal) x0 x4 (ix2 b k) + val_main_v22 (F := Ideal) x1 x4 (ix2 b k) := by
  unfold agg val_main_v31
  refine (concatenate_apply_piece (1 : Fin S131072x384.rank) _ _ (ix2 b (⟨k.val, by omega⟩ : Fin 384)) 0 (by show (0 : Nat) < 3; omega)
    S131072x128 (val_main_v23 (F := Ideal) x0 x1 x4) rfl rfl 0 rfl (ix2 b k) ?_ ?_).trans ?_
  · intro a ha
    match a, ha with
    | ⟨0, _⟩, _ => rfl
    | ⟨1, _⟩, ha => exact absurd rfl ha
  · exact Nat.zero_add _
  · rw [val_main_v23_apply, Ideal.addf_def]

/-- The middle 128 positions: the time encoding. -/
theorem agg_time (x0 x1 : (⟨S131072, .i32⟩ : BufTy).Contents (Elt Ideal)) (x2 : (⟨S131072, .f32⟩ : BufTy).Contents (Elt Ideal)) (x3 : (⟨S131072, .i32⟩ : BufTy).Contents (Elt Ideal)) (x4 : (⟨S100000x128, .f32⟩ : BufTy).Contents (Elt Ideal)) (x5 : (⟨S500000x128, .f32⟩ : BufTy).Contents (Elt Ideal)) (x6 x7 : (⟨S128, .f32⟩ : BufTy).Contents (Elt Ideal)) (b : Fin 131072) (k : Fin 128) :
    agg x0 x1 x2 x3 x4 x5 x6 x7 b ⟨128 + k.val, by omega⟩
      = Ideal.cos (x2 (ix1 b) * x6 (ix1 k) + x7 (ix1 k)) := by
  unfold agg val_main_v31
  refine (concatenate_apply_piece (1 : Fin S131072x384.rank) _ _ (ix2 b (⟨128 + k.val, by omega⟩ : Fin 384)) 1 (by show (1 : Nat) < 3; omega)
    S131072x128 (val_main_v8 (F := Ideal) x2 x6 x7) rfl rfl 128 rfl (ix2 b k) ?_ ?_).trans ?_
  · intro a ha
    match a, ha with
    | ⟨0, _⟩, _ => rfl
    | ⟨1, _⟩, ha => exact absurd rfl ha
  · rfl
  · have h2 : idx_main_v0 (idx_main_v2 (ix2 b k)) = ix1 b := funext fun a => by
      match a with
      | ⟨0, _⟩ => rfl
    have h3 : idx_main_v1 (idx_main_v3 (ix2 b k)) = ix1 k := funext fun a => by
      match a with
      | ⟨0, _⟩ => rfl
    have h6 : idx_main_v5 (idx_main_v6 (ix2 b k)) = ix1 k := funext fun a => by
      match a with
      | ⟨0, _⟩ => rfl
    rw [val_main_v8_apply, val_main_v7_apply, val_main_v4_apply, val_main_v2_apply, val_main_v0_apply, val_main_v3_apply,
      val_main_v1_apply, val_main_v6_apply, val_main_v5_apply, h2, h3, h6]
    simp only [Ideal.hostUnary_cos_def, Ideal.addf_def, Ideal.mulf_def]

/-- The last 128 positions: the gathered edge row. -/
theorem agg_edge (x0 x1 : (⟨S131072, .i32⟩ : BufTy).Contents (Elt Ideal)) (x2 : (⟨S131072, .f32⟩ : BufTy).Contents (Elt Ideal)) (x3 : (⟨S131072, .i32⟩ : BufTy).Contents (Elt Ideal)) (x4 : (⟨S100000x128, .f32⟩ : BufTy).Contents (Elt Ideal)) (x5 : (⟨S500000x128, .f32⟩ : BufTy).Contents (Elt Ideal)) (x6 x7 : (⟨S128, .f32⟩ : BufTy).Contents (Elt Ideal)) (b : Fin 131072) (k : Fin 128) :
    agg x0 x1 x2 x3 x4 x5 x6 x7 b ⟨256 + k.val, by omega⟩
      = val_main_v30 (F := Ideal) x3 x5 (ix2 b k) := by
  unfold agg val_main_v31
  refine (concatenate_apply_piece (1 : Fin S131072x384.rank) _ _ (ix2 b (⟨256 + k.val, by omega⟩ : Fin 384)) 2 (by show (2 : Nat) < 3; omega)
    S131072x128 (val_main_v30 (F := Ideal) x3 x5) rfl rfl 256 rfl (ix2 b k) ?_ ?_).trans ?_
  · intro a ha
    match a, ha with
    | ⟨0, _⟩, _ => rfl
    | ⟨1, _⟩, ha => exact absurd rfl ha
  · rfl
  · rfl

end Cert.ReferenceIdeal.Cell

end
-- ==== Proof.KernelIdealResult.lean ====
/-
  The kernel's two result arrays.

  Grid point t shows rows 1024·t … 1024·t + 1023 of the three gathered arrays and of the time column, the whole
  frequency row, phase row, weight array and bias row, and writes back rows 1024·t … of the two results. So block row
  p of point t is global row b = 1024·t + p, and its gate pre-activation at gate column 384·γ + j is the cell
  specification's gate of row b at gate row row_γ + j (row_γ = 0, 768, 1152): the three 128-long groups are the row
  input's three runs (node rows added, time encoding, edge row), the weight array's entry (k, 384·γ + j) is the
  weight's entry (row_γ + j, k), the bias row's entry is the two biases added — the specification's gate regrouped
  (`gate_by_groups`). Hence what point t writes back is block t of ONE array, `hiddenArr` resp. `cellArr`; the 128
  blocks cover the array (row r lies in block r / 1024); so the arrays end at `hiddenArr` and `cellArr`.
-/
import proofs.«153466_j36593121362101_2_alg».proof.Proof.KernelIdealRun
import proofs.«153466_j36593121362101_2_alg».proof.Proof.KernelIdealOperands
import proofs.«153466_j36593121362101_2_alg».proof.Proof.KernelIdealPayload
import proofs.«153466_j36593121362101_2_alg».proof.Proof.ReferenceCell
import Idealize.ShloMosaic.Lib.Pipeline.Value

set_option maxRecDepth 16384

noncomputable section

namespace Cert.KernelIdeal.Result

open Cert.KernelIdeal Cert.KernelIdeal.Gen Cert.KernelIdeal.Region Cert.KernelIdeal.Operands Cert.KernelIdeal.Payload
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-! ## The specification's inputs, read off the argument arrays -/

abbrev aggOf : Fin 131072 → Fin 384 → EReal := Cert.ReferenceIdeal.Cell.agg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
abbrev wtOf : Fin 1536 → Fin 384 → EReal := Cert.ReferenceIdeal.Cell.wt (m ((c : Thread nD τ).loc main_arg8))
abbrev biOf : Fin 1536 → EReal := Cert.ReferenceIdeal.Cell.bias (m ((c : Thread nD τ).loc main_arg10))
abbrev bhOf : Fin 1536 → EReal := Cert.ReferenceIdeal.Cell.bias (m ((c : Thread nD τ).loc main_arg11))

/-- The new hidden state, as one array over [131072, 384]. -/
def hiddenArr : S131072x384.Idx → EReal := fun i => CellSpec.hidden (aggOf m c) (wtOf m c) (biOf m c) (bhOf m c) (i 0) (i 1)
/-- The new cell state, as one array over [131072, 384]. -/
def cellArr : S131072x384.Idx → EReal := fun i => CellSpec.cell (aggOf m c) (wtOf m c) (biOf m c) (bhOf m c) (i 0) (i 1)

/-! ## The grid -/

theorem lt_N (t : Fin cfg0.N) : t.val < 128 := by
  have h := t.isLt
  have hN : cfg0.N = 128 := N_0
  omega

/-- Block row `p` of grid point `t` is global row 1024·t + p. -/
def rowOf (t : Fin cfg0.N) (p : Fin 1024) : Fin 131072 := ⟨1024 * t.val + p.val, by have := lt_N t; have := p.isLt; omega⟩

/-- The printed index maps over the grid: the row-blocked windows move with the point, the others stay. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-! ## The input blocks, read off the arrays the region finds -/

theorem blk_src (t : Fin cfg0.N) (p : Fin 1024) (k : Fin 128) :
    (iblk m c 0 t : S1024x128.Idx → EReal) (ix2 p k) = (V m c main_v7 : S131072x128.Idx → EReal) (ix2 (rowOf t p) k) := by
  obtain ⟨e0, e1⟩ := (idx_facts t).1
  unfold iblk
  rw [View.read_apply]
  show V m c main_v7 _ = V m c main_v7 _
  congr 1
  funext a
  apply Fin.ext
  match a with
  | ⟨0, _⟩ => show win0_0.index t (0 : Fin 2) * 1024 + 1 * p.val = 1024 * t.val + p.val; rw [e0]; omega
  | ⟨1, _⟩ => show win0_0.index t (1 : Fin 2) * 128 + 1 * k.val = k.val; rw [e1]; omega

theorem blk_tgt (t : Fin cfg0.N) (p : Fin 1024) (k : Fin 128) :
    (iblk m c 1 t : S1024x128.Idx → EReal) (ix2 p k) = (V m c main_v15 : S131072x128.Idx → EReal) (ix2 (rowOf t p) k) := by
  obtain ⟨e0, e1⟩ := (idx_facts t).2.1
  unfold iblk
  rw [View.read_apply]
  show V m c main_v15 _ = V m c main_v15 _
  congr 1
  funext a
  apply Fin.ext
  match a with
  | ⟨0, _⟩ => show win0_1.index t (0 : Fin 2) * 1024 + 1 * p.val = 1024 * t.val + p.val; rw [e0]; omega
  | ⟨1, _⟩ => show win0_1.index t (1 : Fin 2) * 128 + 1 * k.val = k.val; rw [e1]; omega

theorem blk_edge (t : Fin cfg0.N) (p : Fin 1024) (k : Fin 128) :
    (iblk m c 2 t : S1024x128.Idx → EReal) (ix2 p k) = (V m c main_v23 : S131072x128.Idx → EReal) (ix2 (rowOf t p) k) := by
  obtain ⟨e0, e1⟩ := (idx_facts t).2.2.1
  unfold iblk
  rw [View.read_apply]
  show V m c main_v23 _ = V m c main_v23 _
  congr 1
  funext a
  apply Fin.ext
  match a with
  | ⟨0, _⟩ => show win0_2.index t (0 : Fin 2) * 1024 + 1 * p.val = 1024 * t.val + p.val; rw [e0]; omega
  | ⟨1, _⟩ => show win0_2.index t (1 : Fin 2) * 128 + 1 * k.val = k.val; rw [e1]; omega

theorem blk_time (t : Fin cfg0.N) (p : Fin 1024) :
    (iblk m c 3 t : S1024x1.Idx → EReal) (ix2 p 0) = (V m c main_v24 : S131072x1.Idx → EReal) (ix2 (rowOf t p) 0) := by
  obtain ⟨e0, e1⟩ := (idx_facts t).2.2.2.1
  unfold iblk
  rw [View.read_apply]
  show V m c main_v24 _ = V m c main_v24 _
  congr 1
  funext a
  apply Fin.ext
  match a with
  | ⟨0, _⟩ => show win0_3.index t (0 : Fin 2) * 1024 + 1 * p.val = 1024 * t.val + p.val; rw [e0]; omega
  | ⟨1, _⟩ => show win0_3.index t (1 : Fin 2) * 1 + 1 * 0 = 0; rw [e1]

theorem blk_freq (t : Fin cfg0.N) (k : Fin 128) :
    (iblk m c 4 t : S1x128.Idx → EReal) (ix2 0 k) = (V m c main_v25 : S1x128.Idx → EReal) (ix2 0 k) := by
  obtain ⟨e0, e1⟩ := (idx_facts t).2.2.2.2.1
  unfold iblk
  rw [View.read_apply]
  show V m c main_v25 _ = V m c main_v25 _
  congr 1
  funext a
  apply Fin.ext
  match a with
  | ⟨0, _⟩ => show win0_4.index t (0 : Fin 2) * 1 + 1 * 0 = 0; rw [e0]
  | ⟨1, _⟩ => show win0_4.index t (1 : Fin 2) * 128 + 1 * k.val = k.val; rw [e1]; omega

theorem blk_phase (t : Fin cfg0.N) (k : Fin 128) :
    (iblk m c 5 t : S1x128.Idx → EReal) (ix2 0 k) = (V m c main_v26 : S1x128.Idx → EReal) (ix2 0 k) := by
  obtain ⟨e0, e1⟩ := (idx_facts t).2.2.2.2.2.1
  unfold iblk
  rw [View.read_apply]
  show V m c main_v26 _ = V m c main_v26 _
  congr 1
  funext a
  apply Fin.ext
  match a with
  | ⟨0, _⟩ => show win0_5.index t (0 : Fin 2) * 1 + 1 * 0 = 0; rw [e0]
  | ⟨1, _⟩ => show win0_5.index t (1 : Fin 2) * 128 + 1 * k.val = k.val; rw [e1]; omega

theorem blk_weight (t : Fin cfg0.N) (k : Fin 384) (r : Fin 1152) :
    (iblk m c 6 t : S384x1152.Idx → EReal) (ix2 k r) = (V m c main_v32 : S384x1152.Idx → EReal) (ix2 k r) := by
  obtain ⟨e0, e1⟩ := (idx_facts t).2.2.2.2.2.2.1
  unfold iblk
  rw [View.read_apply]
  show V m c main_v32 _ = V m c main_v32 _
  congr 1
  funext a
  apply Fin.ext
  match a with
  | ⟨0, _⟩ => show win0_6.index t (0 : Fin 2) * 384 + 1 * k.val = k.val; rw [e0]; omega
  | ⟨1, _⟩ => show win0_6.index t (1 : Fin 2) * 1152 + 1 * r.val = r.val; rw [e1]; omega

theorem blk_bias (t : Fin cfg0.N) (r : Fin 1152) :
    (iblk m c 7 t : S1x1152.Idx → EReal) (ix2 0 r) = (V m c main_v38 : S1x1152.Idx → EReal) (ix2 0 r) := by
  obtain ⟨e0, e1⟩ := (idx_facts t).2.2.2.2.2.2.2.1
  unfold iblk
  rw [View.read_apply]
  show V m c main_v38 _ = V m c main_v38 _
  congr 1
  funext a
  apply Fin.ext
  match a with
  | ⟨0, _⟩ => show win0_7.index t (0 : Fin 2) * 1 + 1 * 0 = 0; rw [e0]
  | ⟨1, _⟩ => show win0_7.index t (1 : Fin 2) * 1152 + 1 * r.val = r.val; rw [e1]; omega

/-! ## A block row's gates are the specification's -/

/-- Over blocks that read the arrays as above: the gate pre-activation of block row `p` at gate column 384·γ + j is the
    specification's gate of the global row at gate row row_γ + j. -/
theorem gate_of_blocks (x0 x1 x2 : S1024x128.Idx → EReal) (x3 : S1024x1.Idx → EReal) (x4 x5 : S1x128.Idx → EReal) (x6 : S384x1152.Idx → EReal) (x7 : S1x1152.Idx → EReal) (b : Fin 131072) (p : Fin 1024)
    (h0 : ∀ k : Fin 128, x0 (ix2 p k) = Cert.ReferenceIdeal.Read.val_main_v15 (F := Ideal) (m ((c : Thread nD τ).loc main_arg0)) (m ((c : Thread nD τ).loc main_arg4)) (ix2 b k))
    (h1 : ∀ k : Fin 128, x1 (ix2 p k) = Cert.ReferenceIdeal.Read.val_main_v22 (F := Ideal) (m ((c : Thread nD τ).loc main_arg1)) (m ((c : Thread nD τ).loc main_arg4)) (ix2 b k))
    (h2 : ∀ k : Fin 128, x2 (ix2 p k) = Cert.ReferenceIdeal.Read.val_main_v30 (F := Ideal) (m ((c : Thread nD τ).loc main_arg3)) (m ((c : Thread nD τ).loc main_arg5)) (ix2 b k))
    (h3 : x3 (ix2 p 0) = timeArr m c (ix1 b))
    (h4 : ∀ k : Fin 128, x4 (ix2 0 k) = freqArr m c (ix1 k))
    (h5 : ∀ k : Fin 128, x5 (ix2 0 k) = phaseArr m c (ix1 k))
    (h6 : ∀ (k : Fin 384) (r : Fin 1152), x6 (ix2 k r) = (V m c main_v32 : S384x1152.Idx → EReal) (ix2 k r))
    (h7 : ∀ r : Fin 1152, x7 (ix2 0 r) = (V m c main_v38 : S1x1152.Idx → EReal) (ix2 0 r)) (j : Fin 384) :
    blockGate x0 x1 x2 x3 x4 x5 x6 x7 p (⟨j.val, by omega⟩ : Fin 1152)
        = CellSpec.gate (aggOf m c) (wtOf m c) (biOf m c) (bhOf m c) b (⟨j.val, by omega⟩ : Fin 1536)
    ∧ blockGate x0 x1 x2 x3 x4 x5 x6 x7 p (⟨384 + j.val, by omega⟩ : Fin 1152)
        = CellSpec.gate (aggOf m c) (wtOf m c) (biOf m c) (bhOf m c) b (⟨768 + j.val, by omega⟩ : Fin 1536)
    ∧ blockGate x0 x1 x2 x3 x4 x5 x6 x7 p (⟨768 + j.val, by omega⟩ : Fin 1152)
        = CellSpec.gate (aggOf m c) (wtOf m c) (biOf m c) (bhOf m c) b (⟨1152 + j.val, by omega⟩ : Fin 1536) := by
  have wA : ∀ k : Fin 384, _ := fun k => weight_entry m c j k
  obtain ⟨bA, bB, bC⟩ := bias_entry m c j
  refine ⟨?_, ?_, ?_⟩
  · rw [CellSpec.gate_by_groups]
    unfold blockGate
    refine congrArg₂ (· + ·) (congrArg₂ (· + ·) (congrArg₂ (· + ·) (Finset.sum_congr rfl fun k _ => ?_) (Finset.sum_congr rfl fun k _ => ?_)) (Finset.sum_congr rfl fun k _ => ?_)) ?_
    · rw [h0, h1, h6, (wA ⟨k.val, by omega⟩).1]
      exact congrArg₂ (· * ·) (Cert.ReferenceIdeal.Cell.agg_node _ _ _ _ _ _ _ _ b k).symm rfl
    · rw [h3, h4, h5, h6, (wA ⟨128 + k.val, by omega⟩).1]
      exact congrArg₂ (· * ·) (Cert.ReferenceIdeal.Cell.agg_time _ _ _ _ _ _ _ _ b k).symm rfl
    · rw [h2, h6, (wA ⟨256 + k.val, by omega⟩).1]
      exact congrArg₂ (· * ·) (Cert.ReferenceIdeal.Cell.agg_edge _ _ _ _ _ _ _ _ b k).symm rfl
    · rw [h7, bA]; rfl
  · rw [CellSpec.gate_by_groups]
    unfold blockGate
    refine congrArg₂ (· + ·) (congrArg₂ (· + ·) (congrArg₂ (· + ·) (Finset.sum_congr rfl fun k _ => ?_) (Finset.sum_congr rfl fun k _ => ?_)) (Finset.sum_congr rfl fun k _ => ?_)) ?_
    · rw [h0, h1, h6, (wA ⟨k.val, by omega⟩).2.1]
      exact congrArg₂ (· * ·) (Cert.ReferenceIdeal.Cell.agg_node _ _ _ _ _ _ _ _ b k).symm rfl
    · rw [h3, h4, h5, h6, (wA ⟨128 + k.val, by omega⟩).2.1]
      exact congrArg₂ (· * ·) (Cert.ReferenceIdeal.Cell.agg_time _ _ _ _ _ _ _ _ b k).symm rfl
    · rw [h2, h6, (wA ⟨256 + k.val, by omega⟩).2.1]
      exact congrArg₂ (· * ·) (Cert.ReferenceIdeal.Cell.agg_edge _ _ _ _ _ _ _ _ b k).symm rfl
    · rw [h7, bB]; rfl
  · rw [CellSpec.gate_by_groups]
    unfold blockGate
    refine congrArg₂ (· + ·) (congrArg₂ (· + ·) (congrArg₂ (· + ·) (Finset.sum_congr rfl fun k _ => ?_) (Finset.sum_congr rfl fun k _ => ?_)) (Finset.sum_congr rfl fun k _ => ?_)) ?_
    · rw [h0, h1, h6, (wA ⟨k.val, by omega⟩).2.2]
      exact congrArg₂ (· * ·) (Cert.ReferenceIdeal.Cell.agg_node _ _ _ _ _ _ _ _ b k).symm rfl
    · rw [h3, h4, h5, h6, (wA ⟨128 + k.val, by omega⟩).2.2]
      exact congrArg₂ (· * ·) (Cert.ReferenceIdeal.Cell.agg_time _ _ _ _ _ _ _ _ b k).symm rfl
    · rw [h2, h6, (wA ⟨256 + k.val, by omega⟩).2.2]
      exact congrArg₂ (· * ·) (Cert.ReferenceIdeal.Cell.agg_edge _ _ _ _ _ _ _ _ b k).symm rfl
    · rw [h7, bC]; rfl

/-- The same for the blocks grid point `t` shows. -/
theorem gate_at (t : Fin cfg0.N) (p : Fin 1024) (j : Fin 384) :
    blockGate (iblk m c 0 t) (iblk m c 1 t) (iblk m c 2 t) (iblk m c 3 t) (iblk m c 4 t) (iblk m c 5 t) (iblk m c 6 t) (iblk m c 7 t) p (⟨j.val, by omega⟩ : Fin 1152)
        = CellSpec.gate (aggOf m c) (wtOf m c) (biOf m c) (bhOf m c) (rowOf t p) (⟨j.val, by omega⟩ : Fin 1536)
    ∧ blockGate (iblk m c 0 t) (iblk m c 1 t) (iblk m c 2 t) (iblk m c 3 t) (iblk m c 4 t) (iblk m c 5 t) (iblk m c 6 t) (iblk m c 7 t) p (⟨384 + j.val, by omega⟩ : Fin 1152)
        = CellSpec.gate (aggOf m c) (wtOf m c) (biOf m c) (bhOf m c) (rowOf t p) (⟨768 + j.val, by omega⟩ : Fin 1536)
    ∧ blockGate (iblk m c 0 t) (iblk m c 1 t) (iblk m c 2 t) (iblk m c 3 t) (iblk m c 4 t) (iblk m c 5 t) (iblk m c 6 t) (iblk m c 7 t) p (⟨768 + j.val, by omega⟩ : Fin 1152)
        = CellSpec.gate (aggOf m c) (wtOf m c) (biOf m c) (bhOf m c) (rowOf t p) (⟨1152 + j.val, by omega⟩ : Fin 1536) :=
  gate_of_blocks m c (iblk m c 0 t) (iblk m c 1 t) (iblk m c 2 t) (iblk m c 3 t) (iblk m c 4 t) (iblk m c 5 t) (iblk m c 6 t) (iblk m c 7 t) (rowOf t p) p
    (fun k => (blk_src m c t p k).trans (congrFun (src_rows m c) _))
    (fun k => (blk_tgt m c t p k).trans (congrFun (tgt_rows m c) _))
    (fun k => (blk_edge m c t p k).trans (congrFun (edge_rows m c) _))
    ((blk_time m c t p).trans (time_col m c _))
    (fun k => (blk_freq m c t k).trans (freq_row m c k))
    (fun k => (blk_phase m c t k).trans (phase_row m c k))
    (fun k r => blk_weight m c t k r)
    (fun r => blk_bias m c t r) j

/-- What the body leaves in the two output blocks at point `t`, at an entry: the specification's values of the global row. -/
theorem hidden_at (t : Fin cfg0.N) (p : Fin 1024) (j : Fin 384) :
    outH (F := Ideal) (iblk m c 0 t) (iblk m c 1 t) (iblk m c 2 t) (iblk m c 3 t) (iblk m c 4 t) (iblk m c 5 t) (iblk m c 6 t) (iblk m c 7 t) (ix2 p j) = CellSpec.hidden (aggOf m c) (wtOf m c) (biOf m c) (bhOf m c) (rowOf t p) j := by
  obtain ⟨g0, g1, g2⟩ := gate_at m c t p j
  refine (outH_apply (iblk m c 0 t) (iblk m c 1 t) (iblk m c 2 t) (iblk m c 3 t) (iblk m c 4 t) (iblk m c 5 t) (iblk m c 6 t) (iblk m c 7 t) p j).trans ?_
  unfold blockHidden blockCell CellSpec.hidden CellSpec.cell
  rw [g0, g1, g2]

theorem cell_at (t : Fin cfg0.N) (p : Fin 1024) (j : Fin 384) :
    outC (F := Ideal) (iblk m c 0 t) (iblk m c 1 t) (iblk m c 2 t) (iblk m c 3 t) (iblk m c 4 t) (iblk m c 5 t) (iblk m c 6 t) (iblk m c 7 t) (ix2 p j) = CellSpec.cell (aggOf m c) (wtOf m c) (biOf m c) (bhOf m c) (rowOf t p) j := by
  obtain ⟨g0, g1, g2⟩ := gate_at m c t p j
  refine (outC_apply (iblk m c 0 t) (iblk m c 1 t) (iblk m c 2 t) (iblk m c 3 t) (iblk m c 4 t) (iblk m c 5 t) (iblk m c 6 t) (iblk m c 7 t) p j).trans ?_
  unfold blockCell CellSpec.cell
  rw [g0, g1]

/-! ## What each point writes back, the cover, the final arrays -/

/-- What point `t` writes back of the h is block `t` of `hiddenArr`. -/
theorem flushed_h (t : Fin cfg0.N) :
    (dats m 0 c).flushed 8 t = ((cfg0.win 8).blk t).view.read (Elt Ideal) (hiddenArr m c) := by
  obtain ⟨e0, e1⟩ := (idx_facts t).2.2.2.2.2.2.2.2.1
  show (cfg0.win 8).cut (grid0.coords t) ((dats m 0 c).after 8 t) = _
  rw [after_h]
  funext y
  obtain ⟨p, j, rfl⟩ : ∃ (p : Fin 1024) (j : Fin 384), y = ix2 p j := ⟨y 0, y 1, eq_ix2 y⟩
  refine (hidden_at m c t p j).trans ?_
  rw [View.read_apply]
  have r0 : (((cfg0.win 8).blk t).view.emb (ix2 p j)) 0 = rowOf t p := Fin.ext (by
    show win0_8.index t (0 : Fin 2) * 1024 + 1 * p.val = 1024 * t.val + p.val
    rw [e0]; omega)
  have r1 : (((cfg0.win 8).blk t).view.emb (ix2 p j)) 1 = j := Fin.ext (by
    show win0_8.index t (1 : Fin 2) * 384 + 1 * j.val = j.val
    rw [e1]; omega)
  exact (congrArg₂ (CellSpec.hidden (aggOf m c) (wtOf m c) (biOf m c) (bhOf m c)) r0 r1).symm

/-- An index of the array is in point `t`'s block iff each coordinate is in the block's range on its axis. -/
theorem mem_blk_h (t : Fin cfg0.N) (i : S131072x384.Idx) :
    i ∈ ((cfg0.win 8).blk t).view.set ↔ ∀ a : Fin 2, win0_8.index t a * S1024x384.size a ≤ (i a).val ∧ (i a).val < win0_8.index t a * S1024x384.size a + S1024x384.size a := by
  show i ∈ ((View.whole main_v39_0).slice (win0_8.rect t)).set ↔ _
  rw [View.set_slice_whole, Rect.mem_set_unit]
  exact Iff.rfl

/-- Every index lies in the block of the point its row over 1024 names. -/
theorem cover_h (i : S131072x384.Idx) : ∃ t : Fin cfg0.N, (cfg0.win 8).flush t = true ∧ i ∈ ((cfg0.win 8).blk t).view.set := by
  have hi0 : (i 0).val < 131072 := (i 0).isLt
  have hi1 : (i 1).val < 384 := (i 1).isLt
  have hN : (i 0).val / 1024 < cfg0.N := by rw [show cfg0.N = 128 from N_0]; omega
  obtain ⟨e0, e1⟩ := (fun t => (idx_facts t).2.2.2.2.2.2.2.2.1) (⟨(i 0).val / 1024, hN⟩ : Fin cfg0.N)
  refine ⟨⟨(i 0).val / 1024, hN⟩, flush0_8 _, ?_⟩
  rw [mem_blk_h]
  intro a
  match a with
  | ⟨0, _⟩ =>
    show win0_8.index ⟨(i 0).val / 1024, hN⟩ (0 : Fin 2) * 1024 ≤ (i 0).val ∧ (i 0).val < win0_8.index ⟨(i 0).val / 1024, hN⟩ (0 : Fin 2) * 1024 + 1024
    rw [e0]
    show (i 0).val / 1024 * 1024 ≤ (i 0).val ∧ (i 0).val < (i 0).val / 1024 * 1024 + 1024
    omega
  | ⟨1, _⟩ =>
    show win0_8.index ⟨(i 0).val / 1024, hN⟩ (1 : Fin 2) * 384 ≤ (i 1).val ∧ (i 1).val < win0_8.index ⟨(i 0).val / 1024, hN⟩ (1 : Fin 2) * 384 + 384
    rw [e1]
    omega

/-- The array after the run. -/
theorem final_h : (dats m 0 c).arrAt 8 cfg0.N = hiddenArr m c :=
  (dats m 0 c).arrAt_eq_of_cover 8 (hiddenArr m c) (fun t _ => flushed_h m c t) (cover_h)

/-- What point `t` writes back of the c is block `t` of `cellArr`. -/
theorem flushed_c (t : Fin cfg0.N) :
    (dats m 0 c).flushed 9 t = ((cfg0.win 9).blk t).view.read (Elt Ideal) (cellArr m c) := by
  obtain ⟨e0, e1⟩ := (idx_facts t).2.2.2.2.2.2.2.2.2
  show (cfg0.win 9).cut (grid0.coords t) ((dats m 0 c).after 9 t) = _
  rw [after_c]
  funext y
  obtain ⟨p, j, rfl⟩ : ∃ (p : Fin 1024) (j : Fin 384), y = ix2 p j := ⟨y 0, y 1, eq_ix2 y⟩
  refine (cell_at m c t p j).trans ?_
  rw [View.read_apply]
  have r0 : (((cfg0.win 9).blk t).view.emb (ix2 p j)) 0 = rowOf t p := Fin.ext (by
    show win0_9.index t (0 : Fin 2) * 1024 + 1 * p.val = 1024 * t.val + p.val
    rw [e0]; omega)
  have r1 : (((cfg0.win 9).blk t).view.emb (ix2 p j)) 1 = j := Fin.ext (by
    show win0_9.index t (1 : Fin 2) * 384 + 1 * j.val = j.val
    rw [e1]; omega)
  exact (congrArg₂ (CellSpec.cell (aggOf m c) (wtOf m c) (biOf m c) (bhOf m c)) r0 r1).symm

/-- An index of the array is in point `t`'s block iff each coordinate is in the block's range on its axis. -/
theorem mem_blk_c (t : Fin cfg0.N) (i : S131072x384.Idx) :
    i ∈ ((cfg0.win 9).blk t).view.set ↔ ∀ a : Fin 2, win0_9.index t a * S1024x384.size a ≤ (i a).val ∧ (i a).val < win0_9.index t a * S1024x384.size a + S1024x384.size a := by
  show i ∈ ((View.whole main_v39_1).slice (win0_9.rect t)).set ↔ _
  rw [View.set_slice_whole, Rect.mem_set_unit]
  exact Iff.rfl

/-- Every index lies in the block of the point its row over 1024 names. -/
theorem cover_c (i : S131072x384.Idx) : ∃ t : Fin cfg0.N, (cfg0.win 9).flush t = true ∧ i ∈ ((cfg0.win 9).blk t).view.set := by
  have hi0 : (i 0).val < 131072 := (i 0).isLt
  have hi1 : (i 1).val < 384 := (i 1).isLt
  have hN : (i 0).val / 1024 < cfg0.N := by rw [show cfg0.N = 128 from N_0]; omega
  obtain ⟨e0, e1⟩ := (fun t => (idx_facts t).2.2.2.2.2.2.2.2.2) (⟨(i 0).val / 1024, hN⟩ : Fin cfg0.N)
  refine ⟨⟨(i 0).val / 1024, hN⟩, flush0_9 _, ?_⟩
  rw [mem_blk_c]
  intro a
  match a with
  | ⟨0, _⟩ =>
    show win0_9.index ⟨(i 0).val / 1024, hN⟩ (0 : Fin 2) * 1024 ≤ (i 0).val ∧ (i 0).val < win0_9.index ⟨(i 0).val / 1024, hN⟩ (0 : Fin 2) * 1024 + 1024
    rw [e0]
    show (i 0).val / 1024 * 1024 ≤ (i 0).val ∧ (i 0).val < (i 0).val / 1024 * 1024 + 1024
    omega
  | ⟨1, _⟩ =>
    show win0_9.index ⟨(i 0).val / 1024, hN⟩ (1 : Fin 2) * 384 ≤ (i 1).val ∧ (i 1).val < win0_9.index ⟨(i 0).val / 1024, hN⟩ (1 : Fin 2) * 384 + 384
    rw [e1]
    omega

/-- The array after the run. -/
theorem final_c : (dats m 0 c).arrAt 9 cfg0.N = cellArr m c :=
  (dats m 0 c).arrAt_eq_of_cover 9 (cellArr m c) (fun t _ => flushed_c m c t) (cover_c)

/-! ## The run, read -/

/-- The kernel's run: the two result arrays at `hiddenArr` and `cellArr`, the argument arrays as launched. -/
theorem run : θ_run defs (onTc (τ := τ) (main (F := Ideal))) ⟨m, fun _ => 0, ρ⟩ fun r => ∀ c : Dev nD,
      r.2.mem ((c.tc : Thread nD τ).loc main_v39_0) = hiddenArr m c
      ∧ r.2.mem ((c.tc : Thread nD τ).loc main_v39_1) = cellArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).1 8).trans (final_h m c), ((h c).1 9).trans (final_c m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

/-! ## The reference's two results are the same arrays -/

theorem ref_hidden : Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) = hiddenArr m c := by
  funext i
  obtain ⟨b, j, rfl⟩ : ∃ (b : Fin 131072) (j : Fin 384), i = ix2 b j := ⟨i 0, i 1, eq_ix2 i⟩
  exact Cert.ReferenceIdeal.Cell.hidden_eq _ _ _ _ _ _ _ _ _ _ _ b j

theorem ref_cell : Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) = cellArr m c := by
  funext i
  obtain ⟨b, j, rfl⟩ : ∃ (b : Fin 131072) (j : Fin 384), i = ix2 b j := ⟨i 0, i 1, eq_ix2 i⟩
  exact Cert.ReferenceIdeal.Cell.cell_eq _ _ _ _ _ _ _ _ _ _ _ b j

end Cert.KernelIdeal.Result

end
-- ==== Proof.lean ====
/-
  The kernel and its reference compute one function.

  Both programs take three index vectors, a time vector, a node table, an edge table, a frequency and a phase
  vector, an input weight [1536, 384], a hidden weight (unused: the initial state is zero) and two biases, and return
  the hidden and the cell state of one LSTM step from the zero state over the 384-long row input
  [node[src] + node[tgt], cos(t · freq + phase), edge[e]]:
      gate = row input · W_ihᵀ + b_ih + b_hh,   c = σ(gate_i) · tanh(gate_g),   h = σ(gate_o) · tanh(c).
  The reference does this with one 384-long contraction per gate row on the whole batch. The kernel gathers the same
  rows with the same wrapped indices, keeps only the three gate blocks it reads (i, g, o) of the weight and of the
  summed bias, and runs 128 grid points of 1024 rows; at each it contracts the three 128-long groups separately and
  adds the partial products. Over the extended reals — where a change of float format is the identity — the two are
  equal entry by entry, with no finiteness assumption: a 384-term sum is the sum of its three runs of 128, and
  (x + p) + q = x + (p + q) (`CellSpec.gate_by_groups`).

  The three frame claims: each program runs to the end, faults nowhere and leaves its argument arrays as launched —
  the kernel's two readings by the region's run over the body's triple (`Region.frame`), the reference's by its
  run. The idealization rewrote no operation, so `preserves` has nothing to state. The algebraic claim: the kernel's
  two result arrays end at `hiddenArr` and `cellArr` (`Result.run`), and the reference's two results, read at an
  index, are the same specification of the same arguments (`Result.ref_hidden`, `Result.ref_cell`).
-/
import proofs.«153466_j36593121362101_2_alg».proof.Defs
import proofs.«153466_j36593121362101_2_alg».proof.Proof.Gen.Kernel
import proofs.«153466_j36593121362101_2_alg».proof.Proof.Gen.KernelIdeal
import proofs.«153466_j36593121362101_2_alg».proof.Proof.Gen.ReferenceIdeal
import proofs.«153466_j36593121362101_2_alg».proof.Proof.Gen.Pre_finite_inputs
import proofs.«153466_j36593121362101_2_alg».proof.Proof.Gen.ReferenceIdeal.Read
import proofs.«153466_j36593121362101_2_alg».proof.Proof.KernelRun
import proofs.«153466_j36593121362101_2_alg».proof.Proof.KernelIdealRun
import proofs.«153466_j36593121362101_2_alg».proof.Proof.KernelIdealResult
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Region.frame m ρ

/-- So does its idealization. -/
theorem frame_kernelIdeal : Cert.frame_KernelIdeal := fun m ρ _ => Cert.KernelIdeal.Region.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both programs end with the hidden state at `hiddenArr` and the cell state
    at `cellArr` of the kernel's arguments. -/
theorem algebraic : Cert.algebraic_KernelIdeal_ReferenceIdeal := by
  intro m ρ m' ρ' _ hagree
  refine ⟨fun c => Cert.KernelIdeal.Result.hiddenArr m c, fun c => Cert.KernelIdeal.Result.cellArr m c,
    Cert.KernelIdeal.Result.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11⟩ := hagree c
  refine ⟨(h c).1.trans ?_, (h c).2.1.trans ?_, (h c).2.2⟩
  · rw [Cert.ReferenceIdeal.Read.val_main_v59_eq, a0, a1, a2, a3, a4, a5, a6, a7, a8, a10, a11]
    exact Cert.KernelIdeal.Result.ref_hidden m c
  · rw [Cert.ReferenceIdeal.Read.val_main_v51_eq, a0, a1, a2, a3, a4, a5, a6, a7, a8, a10, a11]
    exact Cert.KernelIdeal.Result.ref_cell m c

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
